-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384x128 : Shape := ⟨3, ![1, 16384, 128]⟩
abbrev S16384x1 : Shape := ⟨2, ![16384, 1]⟩
abbrev S1x4096x128 : Shape := ⟨3, ![1, 4096, 128]⟩
abbrev S_ : Shape := ⟨0, ![]⟩

class Facts : Prop where
  bcast_S_S1x16384x128 : S_.BroadcastsInDim S1x16384x128 (![] : Fin 0 → Fin S1x16384x128.rank)
  reducesTo_S1x16384x128_S_d0_1_2 : S1x16384x128.ReducesTo [0, 1, 2] S_
  h_S_ : 0 < S_.numel
  bcast_S_S1x4096x128 : S_.BroadcastsInDim S1x4096x128 (![] : Fin 0 → Fin S1x4096x128.rank)
  reducesTo_S1x4096x128_S_d0_1_2 : S1x4096x128.ReducesTo [0, 1, 2] S_

variable [Facts]

def fn {F : FTy → Type} [FloatOps F] (main_arg0 : FVec F S1x16384x128 .f32) (main_arg1 : IVec S16384x1 32) (main_arg2 : FVec F S1x4096x128 .f32) : IVec S_ 1 :=
  let main_v0 : FVec F S1x16384x128 .f32 := Host.absf main_arg0
  let main_cst : FVec F S_ .f32 := constant S_ .f32 0x7F800000#32
  let main_v1 : FVec F S1x16384x128 .f32 := broadcastInDim S1x16384x128 ![] bcast_S_S1x16384x128 main_cst
  let main_v2 : IVec S1x16384x128 1 := cmpf .olt main_v0 main_v1
  let main_c : IVec S_ 1 := constantI S_ 1 1#1
  let main_v3 : IVec S_ 1 := (fun x v => Host.reduce IntOp.andi x v reducesTo_S1x16384x128_S_d0_1_2 h_S_) main_v2 main_c
  let main_v4 : FVec F S1x4096x128 .f32 := Host.absf main_arg2
  let main_cst_0 : FVec F S_ .f32 := constant S_ .f32 0x7F800000#32
  let main_v5 : FVec F S1x4096x128 .f32 := broadcastInDim S1x4096x128 ![] bcast_S_S1x4096x128 main_cst_0
  let main_v6 : IVec S1x4096x128 1 := cmpf .olt main_v4 main_v5
  let main_c_1 : IVec S_ 1 := constantI S_ 1 1#1
  let main_v7 : IVec S_ 1 := (fun x v => Host.reduce IntOp.andi x v reducesTo_S1x4096x128_S_d0_1_2 h_S_) main_v6 main_c_1
  let main_v8 : IVec S_ 1 := andi main_v3 main_v7
  main_v8
-- ==== Kernel.lean ====
abbrev S1x16384x128 : Shape := ⟨3, ![1, 16384, 128]⟩
abbrev S16384x1 : Shape := ⟨2, ![16384, 1]⟩
abbrev S1x4096x128 : Shape := ⟨3, ![1, 4096, 128]⟩
abbrev S16384x128 : Shape := ⟨2, ![16384, 128]⟩
abbrev S4096x128 : Shape := ⟨2, ![4096, 128]⟩
abbrev S16384 : Shape := ⟨1, ![16384]⟩
abbrev S1x16384 : Shape := ⟨2, ![1, 16384]⟩
abbrev S4096x1 : Shape := ⟨2, ![4096, 1]⟩
abbrev S512x128 : Shape := ⟨2, ![512, 128]⟩
abbrev S1024x128 : Shape := ⟨2, ![1024, 128]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩
abbrev S_ : Shape := ⟨0, ![]⟩

abbrev nBuf : Space → Nat
  | .hbm => 10
  | .vmem => 14
  | .smem => 0
  | _ => 0

abbrev bufTy : (tb : Table) → Fin (tcTables nBuf tb) → BufTy
  | .hbm, ⟨0, _⟩ => ⟨S1x16384x128, .f32⟩
  | .hbm, ⟨1, _⟩ => ⟨S16384x1, .i32⟩
  | .hbm, ⟨2, _⟩ => ⟨S1x4096x128, .f32⟩
  | .hbm, ⟨3, _⟩ => ⟨S16384x128, .f32⟩
  | .hbm, ⟨4, _⟩ => ⟨S4096x128, .f32⟩
  | .hbm, ⟨5, _⟩ => ⟨S16384, .i32⟩
  | .hbm, ⟨6, _⟩ => ⟨S1x16384, .i32⟩
  | .hbm, ⟨7, _⟩ => ⟨S4096x1, .f32⟩
  | .hbm, ⟨8, _⟩ => ⟨S_, .f32⟩
  | .hbm, ⟨9, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S1024x128, .f32⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S1x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v72 : BitVec 1 := Scalar.cmpi .eq arg1 c15_i32
  let v73 : BitVec 32 := Scalar.extui v72
  let c0_i32_33 : BitVec 32 := 0#32
  let v74 : BitVec 1 := Scalar.cmpi .ne v73 c0_i32_33
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x16384x128_S16384x128 : S1x16384x128.ShapeCasts S16384x128
  shapeCasts_S1x4096x128_S4096x128 : S1x4096x128.ShapeCasts S4096x128
  shapeCasts_S16384x1_S16384 : S16384x1.ShapeCasts S16384
  shapeCasts_S16384_S1x16384 : S16384.ShapeCasts S1x16384
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S512x1024_d0_w32 : S512x1024.Iotas .tc 32 [0]
  iota_S512x1024_d1_w32 : S512x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  natLt_1_32 : 1 < 32
  reduces_S512x1024_S512 : S512x1024.Reduces [1] S512
  shapeCasts_S512_S512x1 : S512.ShapeCasts S512x1
  reducesTo_S4096x1_S_d0_1 : S4096x1.ReducesTo [0, 1] S_
  h_S_ : 0 < S_.numel
  dot_S512x128_S1024x128_S512x1024_1_1_0_0_n_n_wf : DotDims.WF S512x128 S1024x128 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .i32 = 32 ∨ (Rect.block (s := S16384x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .i32 = 32 ∨ (Rect.block (s := S1x16384) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_v1) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x16384x128 : Shape := ⟨3, ![1, 16384, 128]⟩
abbrev S16384x1 : Shape := ⟨2, ![16384, 1]⟩
abbrev S1x4096x128 : Shape := ⟨3, ![1, 4096, 128]⟩
abbrev S16384x128 : Shape := ⟨2, ![16384, 128]⟩
abbrev S4096x128 : Shape := ⟨2, ![4096, 128]⟩
abbrev S16384 : Shape := ⟨1, ![16384]⟩
abbrev S4096 : Shape := ⟨1, ![4096]⟩
abbrev S4096x1 : Shape := ⟨2, ![4096, 1]⟩
abbrev S1x16384 : Shape := ⟨2, ![1, 16384]⟩
abbrev S4096x16384 : Shape := ⟨2, ![4096, 16384]⟩
abbrev S_ : Shape := ⟨0, ![]⟩
abbrev S128x16384 : Shape := ⟨2, ![128, 16384]⟩

abbrev nBuf : Space → Nat
  | .hbm => 62
  | .vmem => 0
  | .smem => 0
  | _ => 0

abbrev bufTy : (tb : Table) → Fin (tcTables nBuf tb) → BufTy
  | .hbm, ⟨0, _⟩ => ⟨S1x16384x128, .f32⟩
  | .hbm, ⟨1, _⟩ => ⟨S16384x1, .i32⟩
  | .hbm, ⟨2, _⟩ => ⟨S1x4096x128, .f32⟩
  | .hbm, ⟨3, _⟩ => ⟨S16384x128, .f32⟩
  | .hbm, ⟨4, _⟩ => ⟨S4096x128, .f32⟩
  | .hbm, ⟨5, _⟩ => ⟨S16384, .i32⟩
  | .hbm, ⟨6, _⟩ => ⟨S4096, .i32⟩
  | .hbm, ⟨7, _⟩ => ⟨S4096x1, .i32⟩
  | .hbm, ⟨8, _⟩ => ⟨S1x16384, .i32⟩
  | .hbm, ⟨9, _⟩ => ⟨S4096x16384, .i32⟩
  | .hbm, ⟨10, _⟩ => ⟨S4096x16384, .i32⟩
  | .hbm, ⟨11, _⟩ => ⟨S4096x16384, .i1⟩
  | .hbm, ⟨12, _⟩ => ⟨S4096x16384, .f32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S16384, .i32⟩
  | .hbm, ⟨18, _⟩ => ⟨S1x16384, .i32⟩
  | .hbm, ⟨19, _⟩ => ⟨S4096x1, .i32⟩
  | .hbm, ⟨20, _⟩ => ⟨S4096x16384, .i32⟩
  | .hbm, ⟨21, _⟩ => ⟨S4096x16384, .i32⟩
  | .hbm, ⟨22, _⟩ => ⟨S4096x16384, .i1⟩
  | .hbm, ⟨23, _⟩ => ⟨S4096x16384, .f32⟩
  | .hbm, ⟨24, _⟩ => ⟨S_, .f32⟩
  | .hbm, ⟨25, _⟩ => ⟨S4096x16384, .f32⟩
  | .hbm, ⟨26, _⟩ => ⟨S4096x16384, .f32⟩
  | .hbm, ⟨27, _⟩ => ⟨S4096x16384, .f32⟩
  | .hbm, ⟨28, _⟩ => ⟨S128x16384, .f32⟩
  | .hbm, ⟨29, _⟩ => ⟨S4096x16384, .f32⟩
  | .hbm, ⟨30, _⟩ => ⟨S_, .f32⟩
  | .hbm, ⟨31, _⟩ => ⟨S4096x16384, .f32⟩
  | .hbm, ⟨32, _⟩ => ⟨S4096x16384, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x16384, .f32⟩
  | .hbm, ⟨37, _⟩ => ⟨S4096x16384, .f32⟩
  | .hbm, ⟨38, _⟩ => ⟨S4096x16384, .f32⟩
  | .hbm, ⟨39, _⟩ => ⟨S4096x16384, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1, .f32⟩
  | .hbm, ⟨44, _⟩ => ⟨S4096x16384, .f32⟩
  | .hbm, ⟨45, _⟩ => ⟨S4096x16384, .f32⟩
  | .hbm, ⟨46, _⟩ => ⟨S4096x16384, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .i1⟩
  | .hbm, ⟨54, _⟩ => ⟨S_, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | _, _ => ⟨S1x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_call0_v0 : Ref sig .tc := ⟨.hbm, 55, rfl⟩
abbrev main_call0_v1 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  shapeCasts_S1x16384x128_S16384x128 : S1x16384x128.ShapeCasts S16384x128
  shapeCasts_S1x4096x128_S4096x128 : S1x4096x128.ShapeCasts S4096x128
  shapeCasts_S16384x1_S16384 : S16384x1.ShapeCasts S16384
  slices_S16384_S4096_12288 : S16384.Slices ![12288] S4096
  bcast_S4096_S4096x1_0 : S4096.BroadcastsInDim S4096x1 (![0] : Fin 1 → Fin S4096x1.rank)
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096 : S_.BroadcastsInDim S4096 (![] : Fin 0 → Fin S4096.rank)
  bcast_S_S4096x16384 : S_.BroadcastsInDim S4096x16384 (![] : Fin 0 → Fin S4096x16384.rank)
  transposes_S16384x128_S128x16384_1_0 : S16384x128.Transposes [1, 0] S128x16384
  reducesTo_S4096x16384_S4096_d1 : S4096x16384.ReducesTo [1] S4096
  h_S_ : 0 < S_.numel
  reducesTo_S4096_S_d0 : S4096.ReducesTo [0] S_
  dot_S4096x128_S128x16384_S4096x16384_1_0_0_1_n_n_wf : DotDims.WF S4096x128 S128x16384 S4096x16384 [1] [0] [0] [1] [] []

variable [Facts₀]

def dot_S4096x128_S128x16384_S4096x16384_1_0_0_1_n_n : DotDims S4096x128 S128x16384 S4096x16384 where
  lhsContracting := [1]
  rhsContracting := [0]
  lhsNonContracting := [0]
  rhsNonContracting := [1]
  lhsBatch := []
  rhsBatch := []
  wf := dot_S4096x128_S128x16384_S4096x16384_1_0_0_1_n_n_wf

class Facts : Prop extends Facts₀ where

variable [Facts]
-- ==== Proof.Steps.lean ====
/-
  One key tile of the kernel body, as four named updates and a closing step.

  The body keeps four columns per anchor row between the key tiles of one row tile: the running maximum of the
  logits, the running sum of exp(logit − maximum) over the columns that are not the row's own, the running sum of the
  positive-pair weights times the logits, and the running count of positive pairs. One tile updates them by
  `stepMax`, `stepExp`, `stepPos`, `stepCnt` (the body's own arithmetic, named); the last tile also stores the
  row's value `closeRow` of the four updated columns.
-/
import proofs.«135526_j36172214567215_1_alg».proof.Proof.Gen.KernelIdeal.Skeleton

noncomputable section

open Idealize.ShloMosaic

namespace Cert.KernelIdeal.Pieces

open Cert.KernelIdeal Cert.KernelIdeal.Gen

variable {F : FTy → Type} [FloatOps F] [Named F]

/-- One tile's update of the running maximum: the old maximum against the tile's row maxima of the logits. -/
def stepMax (x0 : Vec F S512x128 .f32) (x1 : Vec F S1024x128 .f32) (mx : Vec F S512x1 .f32) : Vec F S512x1 .f32 :=
  k0_pay12 (k0_pay9 x0 x1) mx

/-- One tile's update of the running exponential sum: the old sum rescaled by exp(old maximum − new maximum), plus the
    tile's sum of exp(logit − new maximum) over the columns that are not the row's own. -/
def stepExp (i : grid0.Coords) (x0 : Vec F S512x128 .f32) (x1 : Vec F S1024x128 .f32) (mx ex : Vec F S512x1 .f32) :
    Vec F S512x1 .f32 :=
  k0_pay11 (k0_pay6 x0 x1) (k0_pay7 i) (k0_pay9 x0 x1) mx mx ex

/-- One tile's update of the running sum of positive-pair weights times logits. -/
def stepPos (i : grid0.Coords) (x0 : Vec F S512x128 .f32) (x1 : Vec F S1024x128 .f32) (x2 : Vec F S512x1 .i32)
    (x3 : Vec F S1x1024 .i32) (ps : Vec F S512x1 .f32) : Vec F S512x1 .f32 :=
  k0_pay13 (k0_pay6 x0 x1) (k0_pay8 i x2 x3) ps

/-- One tile's update of the running count of positive pairs. -/
def stepCnt (i : grid0.Coords) (x2 : Vec F S512x1 .i32) (x3 : Vec F S1x1024 .i32) (ct : Vec F S512x1 .f32) :
    Vec F S512x1 .f32 :=
  k0_pay14 (k0_pay8 i x2 x3) ct

/-- The row values the last tile stores, from the four columns as that tile leaves them. -/
def closeRow (mx ex ps ct : Vec F S512x1 .f32) : Vec F S512x1 .f32 := k0_pay1 ct ps mx ex

end Cert.KernelIdeal.Pieces

end
-- ==== Proof.Pieces.lean ====
/-
  What each control case of the kernel body leaves in its carried scratch and in its output block, as values.

  The first tile of a row tile starts from the reset values (−∞, 0, 0, 0), which the body stores and reads back; the
  middle tiles update what the tile before left; the last tile also stores the row's value of the four updated
  columns. The three cases' found pieces are exactly the named steps: each scratch is overwritten whole by one store
  whose operands are whole-buffer loads.
-/
import proofs.«135526_j36172214567215_1_alg».proof.Proof.Gen.KernelIdeal.Frame
import proofs.«135526_j36172214567215_1_alg».proof.Proof.Steps
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

theorem sout_B_0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) (xs3 : Vec F S512x1 .f32) :
    sout0_B_0 c i arg2 harg2 arg3 harg3 arg4 harg4 arg5 harg5 arg6 harg6 arg7 harg7 arg8 harg8 arg9 harg9 arg10 harg10 hc0 hc1 x0 x1 x2 x3 xs0 xs1 xs2 xs3 = stepMax x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

theorem sout_B_1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) (xs3 : Vec F S512x1 .f32) :
    sout0_B_1 c i arg2 harg2 arg3 harg3 arg4 harg4 arg5 harg5 arg6 harg6 arg7 harg7 arg8 harg8 arg9 harg9 arg10 harg10 hc0 hc1 x0 x1 x2 x3 xs0 xs1 xs2 xs3 = stepExp i x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

theorem sout_B_2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) (xs3 : Vec F S512x1 .f32) :
    sout0_B_2 c i arg2 harg2 arg3 harg3 arg4 harg4 arg5 harg5 arg6 harg6 arg7 harg7 arg8 harg8 arg9 harg9 arg10 harg10 hc0 hc1 x0 x1 x2 x3 xs0 xs1 xs2 xs3 = stepPos i x0 x1 x2 x3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

theorem sout_B_3 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) (xs3 : Vec F S512x1 .f32) :
    sout0_B_3 c i arg2 harg2 arg3 harg3 arg4 harg4 arg5 harg5 arg6 harg6 arg7 harg7 arg8 harg8 arg9 harg9 arg10 harg10 hc0 hc1 x0 x1 x2 x3 xs0 xs1 xs2 xs3 = stepCnt i x2 x3 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

theorem sout_C_0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) (xs3 : Vec F S512x1 .f32) :
    sout0_C_0 c i arg2 harg2 arg3 harg3 arg4 harg4 arg5 harg5 arg6 harg6 arg7 harg7 arg8 harg8 arg9 harg9 arg10 harg10 hc0 hc1 x0 x1 x2 x3 xs0 xs1 xs2 xs3 = stepMax x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

theorem sout_C_1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) (xs3 : Vec F S512x1 .f32) :
    sout0_C_1 c i arg2 harg2 arg3 harg3 arg4 harg4 arg5 harg5 arg6 harg6 arg7 harg7 arg8 harg8 arg9 harg9 arg10 harg10 hc0 hc1 x0 x1 x2 x3 xs0 xs1 xs2 xs3 = stepExp i x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

theorem sout_C_2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) (xs3 : Vec F S512x1 .f32) :
    sout0_C_2 c i arg2 harg2 arg3 harg3 arg4 harg4 arg5 harg5 arg6 harg6 arg7 harg7 arg8 harg8 arg9 harg9 arg10 harg10 hc0 hc1 x0 x1 x2 x3 xs0 xs1 xs2 xs3 = stepPos i x0 x1 x2 x3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

theorem sout_C_3 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) (xs3 : Vec F S512x1 .f32) :
    sout0_C_3 c i arg2 harg2 arg3 harg3 arg4 harg4 arg5 harg5 arg6 harg6 arg7 harg7 arg8 harg8 arg9 harg9 arg10 harg10 hc0 hc1 x0 x1 x2 x3 xs0 xs1 xs2 xs3 = stepCnt i x2 x3 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

/-- The last tile's output block: the row values of the four columns as this tile leaves them (the body reads them
    back after its own stores). -/
theorem out_C (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) (xs3 : Vec F S512x1 .f32) :
    out0_C_4 c i arg2 harg2 arg3 harg3 arg4 harg4 arg5 harg5 arg6 harg6 arg7 harg7 arg8 harg8 arg9 harg9 arg10 harg10 hc0 hc1 x0 x1 x2 x3 xs0 xs1 xs2 xs3
      = closeRow (stepMax x0 x1 xs0) (stepExp i x0 x1 xs0 xs1) (stepPos i x0 x1 x2 x3 xs2) (stepCnt i x2 x3 xs3) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readCov_unit_zero (S := S512x1) _ hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

/-- The first tile of a row tile: the same update from the reset values, which the body stores and reads back. -/
theorem sout_A_0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x128 .f32) (x1 : Vec F S1024x128 .f32) (x2 : Vec F S512x1 .i32) (x3 : Vec F S1x1024 .i32) :
    sout0_A_0 c i arg2 harg2 arg3 harg3 arg4 harg4 arg5 harg5 arg6 harg6 arg7 harg7 arg8 harg8 arg9 harg9 arg10 harg10 hc0 hc1 x0 x1 x2 x3 = stepMax x0 x1 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz]
  simp only [View.readCov_unit_zero (S := S512x1) _ hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

/-- The first tile of a row tile: the same update from the reset values, which the body stores and reads back. -/
theorem sout_A_1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x128 .f32) (x1 : Vec F S1024x128 .f32) (x2 : Vec F S512x1 .i32) (x3 : Vec F S1x1024 .i32) :
    sout0_A_1 c i arg2 harg2 arg3 harg3 arg4 harg4 arg5 harg5 arg6 harg6 arg7 harg7 arg8 harg8 arg9 harg9 arg10 harg10 hc0 hc1 x0 x1 x2 x3 = stepExp i x0 x1 k0_pay2 k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz]
  simp only [View.readCov_unit_zero (S := S512x1) _ hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

/-- The first tile of a row tile: the same update from the reset values, which the body stores and reads back. -/
theorem sout_A_2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x128 .f32) (x1 : Vec F S1024x128 .f32) (x2 : Vec F S512x1 .i32) (x3 : Vec F S1x1024 .i32) :
    sout0_A_2 c i arg2 harg2 arg3 harg3 arg4 harg4 arg5 harg5 arg6 harg6 arg7 harg7 arg8 harg8 arg9 harg9 arg10 harg10 hc0 hc1 x0 x1 x2 x3 = stepPos i x0 x1 x2 x3 k0_pay4 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz]
  simp only [View.readCov_unit_zero (S := S512x1) _ hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

/-- The first tile of a row tile: the same update from the reset values, which the body stores and reads back. -/
theorem sout_A_3 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x128 .f32) (x1 : Vec F S1024x128 .f32) (x2 : Vec F S512x1 .i32) (x3 : Vec F S1x1024 .i32) :
    sout0_A_3 c i arg2 harg2 arg3 harg3 arg4 harg4 arg5 harg5 arg6 harg6 arg7 harg7 arg8 harg8 arg9 harg9 arg10 harg10 hc0 hc1 x0 x1 x2 x3 = stepCnt i x2 x3 k0_pay5 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz]
  simp only [View.readCov_unit_zero (S := S512x1) _ hz]
  simp only [View.readAt_eq_ld, harg2.read_unread, harg3.read_unread, harg4.read_unread, harg5.read_unread, harg7.read_unread, harg8.read_unread, harg9.read_unread, harg10.read_unread, View.ld_unit_zero (S := S512x128) hz, View.ld_unit_zero (S := S1024x128) hz, View.ld_unit_zero (S := S512x1) hz, View.ld_unit_zero (S := S1x1024) hz]
  rfl

end Cert.KernelIdeal.Pieces

end
-- ==== Proof.ECoe.lean ====
/-
  Extended reals that are real: the operations of the ideal instance on coerced reals are the coerced real operations.
  A finite sum of coerced reals is the coerced sum; a fold of `max` from `⊥` over a nonempty set of coerced reals is a
  coerced real (which one is never needed: the row value does not depend on the shift); the f32 patterns of `-∞`, `0`
  and `1` denote `⊥`, `0`, `1`.
-/
import Idealize.ShloMosaic.PureOps.Ideal
import Idealize.ShloMosaic.PureOps.Ideal.Laws

namespace Cert.ECoe

open Idealize.ShloMosaic

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe_fin {n : ℕ} (f : Fin n → EReal) (g : ℕ → ℝ) (h : ∀ k : Fin n, f k = (g k.val : EReal)) :
    ∑ k : Fin n, f k = ((∑ k ∈ Finset.range n, g k : ℝ) : EReal) := by
  rw [coe_sum, ← Fin.sum_univ_eq_sum_range (fun k => (g k : EReal)) n]
  exact Finset.sum_congr rfl fun k _ => h k

theorem fold_max_coe {ι : Type*} [DecidableEq ι] (s : Finset ι) (hs : s.Nonempty) (f : ι → EReal)
    (hf : ∀ k, ∃ r : ℝ, f k = (r : EReal)) : ∃ M : ℝ, s.fold max (⊥ : EReal) f = (M : EReal) := by
  induction hs using Finset.Nonempty.cons_induction with
  | singleton a =>
    obtain ⟨r, hr⟩ := hf a
    exact ⟨r, by rw [Finset.fold_singleton, hr, max_eq_left bot_le]⟩
  | cons a s ha _ ih =>
    obtain ⟨M, hM⟩ := ih
    obtain ⟨r, hr⟩ := hf a
    exact ⟨max r M, by rw [Finset.fold_cons, hM, hr]; exact (EReal.coe_strictMono.monotone.map_max).symm⟩

theorem ofBits_neg_inf : Ideal.ofBits .f32 0xFF800000#32 = (⊥ : EReal) := by
  simp [Ideal.ofBits, Ideal.ieee]

theorem ofBits_one : Ideal.ofBits .f32 0x3F800000#32 = (1 : EReal) := by
  simp [Ideal.ofBits, Ideal.ieee, -EReal.coe_mul]; norm_num

/-- The whole-row program's divisor, the f32 nearest to 0.07, denotes the rational 9395241 / 2^27. -/
theorem ofBits_temp : Ideal.ofBits .f32 0x3D8F5C29#32 = ((9395241 / 134217728 : ℝ) : EReal) := by
  simp [Ideal.ofBits, Ideal.ieee, -EReal.coe_mul]; norm_num

theorem ofBits_zero : Ideal.ofBits .f32 0x00000000#32 = (0 : EReal) := Ideal.ofBits_zero_f32

theorem exp_sub_coe (a b : ℝ) : Ideal.exp ((a : EReal) - (b : EReal)) = ((Real.exp (a - b) : ℝ) : EReal) := by
  rw [← EReal.coe_sub, Ideal.exp_coe]

theorem exp_bot_sub_coe (b : ℝ) : Ideal.exp ((⊥ : EReal) - (b : EReal)) = 0 := by
  rw [EReal.bot_sub, Ideal.exp_bot]

theorem log_coe_pos {r : ℝ} (h : 0 < r) : Ideal.log (r : EReal) = ((Real.log r : ℝ) : EReal) := by
  rw [Ideal.log_coe, if_neg (not_le.mpr h)]

theorem div_coe_coe (a : ℝ) {b : ℝ} (h : b ≠ 0) : Ideal.div (a : EReal) (b : EReal) = ((a / b : ℝ) : EReal) := by
  rw [Ideal.div_coe h, ← EReal.coe_mul]; congr 1; ring

end Cert.ECoe
-- ==== Proof.RowLaw.lean ====
/-
  The row law of the masked log-softmax mean, over the reals.

  For one anchor row, with logits `x j`, the self-exclusion weights `lm j` (zero at the row's own column, one
  elsewhere) and the positive-pair weights `mk j`, the quantity both programs compute is

      rowVal = -( (∑ mk·x − (∑ mk) · log (∑ exp x · lm)) / (the count ∑ mk, or 1 when it is not positive) ).

  The tiled program keeps a running shift `M`, a running sum `∑ exp (x − M) · lm` rescaled whenever the shift
  moves, and the two running sums `∑ mk·x`, `∑ mk`; the whole-row program subtracts the row maximum first. Neither
  depends on the shift: `∑ exp (x − M) · lm = exp (−M) · ∑ exp x · lm`, so `log` of it is `log (∑ exp x · lm) − M`,
  and the `M` cancels against the `M · ∑ mk` (tiled form) or inside `∑ mk · (x − M − log …)` (whole-row form).
-/
import Mathlib.Analysis.SpecialFunctions.Log.Basic
import Mathlib.Algebra.BigOperators.Intervals

namespace Cert.RowLaw

open Finset

/-- The unshifted exponential sum of a row over its first `N` columns. -/
noncomputable def expSum (x lm : ℕ → ℝ) (N : ℕ) : ℝ := ∑ j ∈ range N, Real.exp (x j) * lm j

/-- The shifted exponential sum the programs carry. -/
noncomputable def shiftSum (x lm : ℕ → ℝ) (M : ℝ) (N : ℕ) : ℝ := ∑ j ∈ range N, Real.exp (x j - M) * lm j

/-- The sum of the positive-pair weights times the logits, and the count of positive pairs. -/
noncomputable def posSum (x mk : ℕ → ℝ) (N : ℕ) : ℝ := ∑ j ∈ range N, mk j * x j
noncomputable def cnt (mk : ℕ → ℝ) (N : ℕ) : ℝ := ∑ j ∈ range N, mk j

/-- The divisor: the count, or one where the count is not positive. -/
noncomputable def safe (s : ℝ) : ℝ := if 0 < s then s else 1

theorem safe_ne_zero (s : ℝ) : safe s ≠ 0 := by
  unfold safe; split_ifs with h
  · exact h.ne'
  · exact one_ne_zero

/-- The row's value: minus the mean log-probability of its positive pairs. -/
noncomputable def rowVal (x lm mk : ℕ → ℝ) (N : ℕ) : ℝ :=
  -((posSum x mk N - cnt mk N * Real.log (expSum x lm N)) / safe (cnt mk N))

theorem shiftSum_eq (x lm : ℕ → ℝ) (M : ℝ) (N : ℕ) : shiftSum x lm M N = Real.exp (-M) * expSum x lm N := by
  unfold shiftSum expSum
  rw [Finset.mul_sum]
  refine Finset.sum_congr rfl fun j _ => ?_
  rw [sub_eq_add_neg, Real.exp_add]; ring

theorem log_shiftSum {x lm : ℕ → ℝ} {N : ℕ} (h : 0 < expSum x lm N) (M : ℝ) :
    Real.log (shiftSum x lm M N) = Real.log (expSum x lm N) - M := by
  rw [shiftSum_eq, Real.log_mul (Real.exp_pos _).ne' h.ne', Real.log_exp]; ring

theorem shiftSum_pos {x lm : ℕ → ℝ} {N : ℕ} (h : 0 < expSum x lm N) (M : ℝ) : 0 < shiftSum x lm M N := by
  rw [shiftSum_eq]; exact mul_pos (Real.exp_pos _) h

/-- The exponential sum is positive as soon as the weights are nonnegative and one of them is positive. -/
theorem expSum_pos {x lm : ℕ → ℝ} {N : ℕ} (h0 : ∀ j, 0 ≤ lm j) (j0 : ℕ) (hj : j0 < N) (h1 : 0 < lm j0) :
    0 < expSum x lm N := by
  unfold expSum
  refine Finset.sum_pos' (fun j _ => mul_nonneg (Real.exp_pos _).le (h0 j)) ⟨j0, Finset.mem_range.mpr hj, ?_⟩
  exact mul_pos (Real.exp_pos _) h1

/-- One tile of the running exponential sum: rescale what was accumulated under the old shift, add the tile under
    the new one. -/
theorem shiftSum_step (x lm : ℕ → ℝ) (M M' : ℝ) (n b : ℕ) :
    Real.exp (M - M') * shiftSum x lm M n + ∑ k ∈ range b, Real.exp (x (n + k) - M') * lm (n + k)
      = shiftSum x lm M' (n + b) := by
  unfold shiftSum
  rw [Finset.sum_range_add, Finset.mul_sum]
  congr 1
  refine Finset.sum_congr rfl fun j _ => ?_
  rw [← mul_assoc, ← Real.exp_add]; congr 2; ring

theorem posSum_step (x mk : ℕ → ℝ) (n b : ℕ) :
    posSum x mk n + ∑ k ∈ range b, mk (n + k) * x (n + k) = posSum x mk (n + b) := by
  unfold posSum; rw [Finset.sum_range_add]

theorem cnt_step (mk : ℕ → ℝ) (n b : ℕ) : cnt mk n + ∑ k ∈ range b, mk (n + k) = cnt mk (n + b) := by
  unfold cnt; rw [Finset.sum_range_add]

/-- The tiled program's last step: from the carried shift, shifted sum, weighted sum and count. -/
theorem tiled_form {x lm mk : ℕ → ℝ} {N : ℕ} (h : 0 < expSum x lm N) (M : ℝ) :
    0 - (posSum x mk N - M * cnt mk N - Real.log (shiftSum x lm M N) * cnt mk N) / safe (cnt mk N)
      = rowVal x lm mk N := by
  rw [log_shiftSum h]; unfold rowVal; rw [zero_sub]; congr 2; ring

/-- The whole-row program: the weights times the log-probabilities, summed. -/
theorem whole_form {x lm mk : ℕ → ℝ} {N : ℕ} (h : 0 < expSum x lm N) (M : ℝ) :
    -((∑ j ∈ range N, mk j * ((x j - M) - Real.log (shiftSum x lm M N))) / safe (cnt mk N))
      = rowVal x lm mk N := by
  rw [log_shiftSum h]; unfold rowVal posSum cnt
  congr 2
  rw [Finset.sum_mul, ← Finset.sum_sub_distrib]
  refine Finset.sum_congr rfl fun j _ => ?_
  ring

end Cert.RowLaw
-- ==== Proof.Data.lean ====
/-
  The rows' data as reals, from the three argument arrays: what both programs compute with.

  For anchor row `R` (a row of the features) and column `j` (a row of the memory bank): the logit is the inner
  product of the two feature rows divided by the temperature (the whole-row program's divisor 9395241 / 2^27; the tiled
  program multiplies by its exact reciprocal); the self-exclusion weight is zero on the row's own column `12288 + R`
  and one elsewhere; the positive-pair weight is the agreement of the labels of rows `12288 + R` and `j` (one or
  zero) times the self-exclusion weight. The column tests are the programs' own: equality of 32-bit words.
-/
import Idealize.ShloMosaic.Lib.ValueIdx
import Idealize.ShloMosaic.PureOps.Ideal
import proofs.«135526_j36172214567215_1_alg».proof.Proof.RowLaw

noncomputable section

open Idealize.ShloMosaic Idealize.ShloMosaic.ValueIdx

namespace Cert.Data

/-- Column `j` is row `R`'s own column when it is the column 12288 + R (as 32-bit words, the way both programs test it). -/
def ownCol (R j : ℕ) : BitVec 1 := IntOp.cmpi .eq (BitVec.ofNat 32 j) (BitVec.ofNat 32 (12288 + R))

/-- The self-exclusion weight of (row R, column j) as a real: zero on the row's own column, one elsewhere. -/
def lmR (R j : ℕ) : ℝ := if ownCol R j = 1 then 0 else 1

theorem lmR_nonneg (R j : ℕ) : 0 ≤ lmR R j := by unfold lmR; split_ifs <;> norm_num

/-- Column 0 is never a row's own column (12288 + R is not 0 as a 32-bit word, R being below 4096). -/
theorem lmR_zero_col {R : ℕ} (hR : R < 4096) : lmR R 0 = 1 := by
  have hne : BitVec.ofNat 32 0 ≠ BitVec.ofNat 32 (12288 + R) := by
    intro e
    have := congrArg BitVec.toNat e
    simp only [BitVec.toNat_ofNat] at this
    omega
  have hc : ownCol R 0 = 0#1 := by
    unfold ownCol IntOp.cmpi
    show BitVec.ofBool (BitVec.ofNat 32 0 == BitVec.ofNat 32 (12288 + R)) = 0#1
    rw [beq_eq_false_iff_ne.mpr hne]
    rfl
  unfold lmR
  rw [hc, if_neg (by decide)]

/-- Label agreement as a real: one when the two label words are equal, zero otherwise. -/
def agree (a b : BitVec 32) : ℝ := if IntOp.cmpi .eq a b = 1 then 1 else 0

/-- A truth bit widened to a word and read as a signed integer, or read as an unsigned one, is one or zero. -/
theorem bit_toInt (b : BitVec 1) : (((b.setWidth 32 : BitVec 32).toInt : ℝ)) = if b = 1 then 1 else 0 := by
  rcases BitVec.eq_zero_or_eq_one b with h | h <;> subst h
  · have : (BitVec.setWidth 32 (0#1)).toInt = 0 := by decide
    rw [this]; simp
  · have : (BitVec.setWidth 32 (1#1)).toInt = 1 := by decide
    rw [this]; simp

theorem bit_toNat (b : BitVec 1) : ((b.toNat : ℝ)) = if b = 1 then 1 else 0 := by
  rcases BitVec.eq_zero_or_eq_one b with h | h <;> subst h <;> simp

/-- Adding two words that are numbers below 2^32 is adding the numbers (as words). -/
theorem word_off (a : ℕ) (o : ℕ) : BitVec.ofNat 32 o + BitVec.ofNat 32 a = BitVec.ofNat 32 (o + a) := by
  apply BitVec.eq_of_toNat_eq
  simp [BitVec.toNat_add, BitVec.toNat_ofNat, Nat.add_mod]

/-! ## The argument arrays as real data -/

abbrev SFeat : Shape := ⟨3, ![1, 4096, 128]⟩
abbrev SBank : Shape := ⟨3, ![1, 16384, 128]⟩
abbrev SLab : Shape := ⟨2, ![16384, 1]⟩

/-- Every entry is a real number (what the precondition gives of the float arguments). -/
def Finite {s : Shape} (A : s.Idx → EReal) : Prop := ∀ i, ∃ x : ℝ, A i = (x : EReal)

variable (A2 : SFeat.Idx → EReal) (A0 : SBank.Idx → EReal) (A1 : SLab.Idx → BitVec 32)

def feat (R d : ℕ) : ℝ :=
  if h : R < 4096 ∧ d < 128 then (A2 (ix3 (0 : Fin 1) (⟨R, h.1⟩ : Fin 4096) (⟨d, h.2⟩ : Fin 128))).toReal else 0

def bank (j d : ℕ) : ℝ :=
  if h : j < 16384 ∧ d < 128 then (A0 (ix3 (0 : Fin 1) (⟨j, h.1⟩ : Fin 16384) (⟨d, h.2⟩ : Fin 128))).toReal else 0

def lab (j : ℕ) : BitVec 32 := if h : j < 16384 then A1 (ix2 (⟨j, h⟩ : Fin 16384) (0 : Fin 1)) else 0

theorem feat_coe (hF : Finite A2) (R : Fin 4096) (d : Fin 128) :
    A2 (ix3 (0 : Fin 1) R d) = ((feat A2 R.val d.val : ℝ) : EReal) := by
  obtain ⟨x, hx⟩ := hF (ix3 (0 : Fin 1) R d)
  unfold feat
  rw [dif_pos ⟨R.isLt, d.isLt⟩]
  show A2 (ix3 (0 : Fin 1) R d) = ((A2 (ix3 (0 : Fin 1) R d)).toReal : EReal)
  rw [hx, EReal.toReal_coe]

theorem bank_coe (hF : Finite A0) (j : Fin 16384) (d : Fin 128) :
    A0 (ix3 (0 : Fin 1) j d) = ((bank A0 j.val d.val : ℝ) : EReal) := by
  obtain ⟨x, hx⟩ := hF (ix3 (0 : Fin 1) j d)
  unfold bank
  rw [dif_pos ⟨j.isLt, d.isLt⟩]
  show A0 (ix3 (0 : Fin 1) j d) = ((A0 (ix3 (0 : Fin 1) j d)).toReal : EReal)
  rw [hx, EReal.toReal_coe]

theorem lab_eq (j : Fin 16384) : A1 (ix2 j (0 : Fin 1)) = lab A1 j.val := by
  unfold lab
  rw [dif_pos j.isLt]

/-- The inverse temperature both programs use, as a real: 2^27 / 9395241. -/
def invTemp : ℝ := 134217728 / 9395241

/-- The logit of (row R, column j). -/
def logit (R j : ℕ) : ℝ := (∑ d ∈ Finset.range 128, feat A2 R d * bank A0 j d) * invTemp

/-- The positive-pair weight of (row R, column j). -/
def mkR (R j : ℕ) : ℝ := agree (lab A1 (12288 + R)) (lab A1 j) * lmR R j

/-- The value of row R: minus the mean log-probability of its positive pairs over all 16384 columns. -/
def rowValue (R : ℕ) : ℝ := Cert.RowLaw.rowVal (logit A2 A0 R) (lmR R) (mkR A1 R) 16384

/-- The programs' result: the sum of the 4096 rows' values. -/
def total : ℝ := ∑ R ∈ Finset.range 4096, rowValue A2 A0 A1 R

/-- The exponential sum of a row is positive: column 0 is never excluded. -/
theorem expSum_pos_row {R : ℕ} (hR : R < 4096) : 0 < Cert.RowLaw.expSum (logit A2 A0 R) (lmR R) 16384 :=
  Cert.RowLaw.expSum_pos (lmR_nonneg R) 0 (by norm_num) (by rw [lmR_zero_col hR]; exact one_pos)

end Cert.Data

end
-- ==== Proof.Tile.lean ====
/-
  The arithmetic of one key tile, read at one anchor row, at the ideal instance.

  A column of the tile's [512, 1024] arrays is indexed by the row `r` and the tile column `k`; the carried columns by
  `(r, 0)`. A lane reduction of a [512, 1024] array followed by the keep-dims cast reads, at `(r, 0)`, the sum (or the
  fold of `max` from −∞) over `k : Fin 1024` of the array at `(r, k)`; a column broadcast back to [512, 1024] reads the
  column at `(r, 0)`. With these the four updates of `Steps` are, at a row, plain expressions in the extended reals.
-/
import proofs.«135526_j36172214567215_1_alg».proof.Proof.Steps
import proofs.«135526_j36172214567215_1_alg».proof.Proof.ECoe
import proofs.«135526_j36172214567215_1_alg».proof.Proof.RowLaw
import proofs.«135526_j36172214567215_1_alg».proof.Proof.Data
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen Cert.KernelIdeal.Pieces Cert.Data

/-! ## Layout: a vector as a column, a column across the lanes, a row down the rows -/

theorem col_apply {α : Type} (v : S512.Idx → α) (r : Fin 512) (z : Fin 1) :
    shapeCast S512x1 v shapeCasts_S512_S512x1 (ix2 r z) = v (ix1 r) :=
  shapeCast_apply v shapeCasts_S512_S512x1 (ix2 r z) (ix1 r) (by
    rw [Shape.rowMajor_val_one, Shape.rowMajor_val_two]
    have := z.isLt
    show r.val = r.val * 1 + z.val
    omega)

theorem bcol_apply {α : Type} (v : S512x1.Idx → α) (r : Fin 512) (k : Fin 1024) :
    broadcastTo S512x1024 v broadcasts_S512x1_S512x1024 (ix2 r k) = v (ix2 r 0) :=
  broadcastTo_apply v broadcasts_S512x1_S512x1024 (ix2 r k) (ix2 r 0) (fun a => by
    match a with
    | ⟨0, _⟩ => rfl
    | ⟨1, _⟩ => rfl)

theorem brow_apply {α : Type} (v : S1x1024.Idx → α) (r : Fin 512) (k : Fin 1024) :
    broadcastTo S512x1024 v broadcasts_S1x1024_S512x1024 (ix2 r k) = v (ix2 0 k) :=
  broadcastTo_apply v broadcasts_S1x1024_S512x1024 (ix2 r k) (ix2 0 k) (fun a => by
    match a with
    | ⟨0, _⟩ => rfl
    | ⟨1, _⟩ => rfl)

/-! ## Lane reductions read at a row -/

theorem lift_eq (r : Fin 512) (k : Fin 1024) : reduces_S512x1024_S512.lift (ix1 r) k = ix2 r k :=
  funext fun a => Fin.ext (by
    match a with
    | ⟨0, _⟩ => rfl
    | ⟨1, _⟩ => rfl)

theorem rowsum_apply (v : FVec Ideal S512x1024 .f32) (hacc : (0x00000000#32 : BitVec 32) = 0x00000000#32) (r : Fin 512) :
    multiReduction .add [1] S512 v 0x00000000#32 reduces_S512x1024_S512 (.inl rfl) hacc (ix1 r)
      = ∑ k : Fin 1024, v (ix2 r k) :=
  (Ideal.multiReduction_add_single v 0x00000000#32 reduces_S512x1024_S512 (.inl rfl) hacc (ix1 r)).trans
    (Finset.sum_congr rfl fun k _ => congrArg v (lift_eq r k))

theorem rowmax_apply (v : FVec Ideal S512x1024 .f32) (hacc : (0xFF800000#32 : BitVec 32) = 0xFF800000#32) (r : Fin 512) :
    multiReduction .maximumf [1] S512 v 0xFF800000#32 reduces_S512x1024_S512 (.inl rfl) hacc (ix1 r)
      = (Finset.univ : Finset (Fin 1024)).fold max (⊥ : EReal) (fun k => v (ix2 r k)) := by
  refine (Ideal.multiReduction_maximumf_single v 0xFF800000#32 reduces_S512x1024_S512 (.inl rfl) hacc (ix1 r)).trans ?_
  show Finset.fold max (Ideal.ofBits .f32 0xFF800000#32) _ _ = _
  rw [Cert.ECoe.ofBits_neg_inf]
  exact Finset.fold_congr fun k _ => congrArg v (lift_eq r k)

/-! ## The pointwise operations the payloads use, at an index -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-! ## The payloads at a row -/

theorem pay10_apply (T : FVec Ideal S512x1 .f32) (mx : Vec Ideal S512x1 .f32) (j : S512x1.Idx) :
    k0_pay10 (F := Ideal) T mx j = max (mx j) (T j) := rfl

theorem stepMax_apply (x0 : Vec Ideal S512x128 .f32) (x1 : Vec Ideal S1024x128 .f32) (mx : Vec Ideal S512x1 .f32)
    (j : S512x1.Idx) : stepMax (F := Ideal) x0 x1 mx j = max (mx j) (k0_pay9 x0 x1 j) := by
  unfold stepMax k0_pay12
  rw [shapeCast_self]
  rfl

theorem pay9_apply (x0 : Vec Ideal S512x128 .f32) (x1 : Vec Ideal S1024x128 .f32) (r : Fin 512) (z : Fin 1) :
    k0_pay9 (F := Ideal) x0 x1 (ix2 r z)
      = (Finset.univ : Finset (Fin 1024)).fold max (⊥ : EReal) (fun k => k0_pay6 x0 x1 (ix2 r k)) := by
  unfold k0_pay9
  exact (col_apply _ r z).trans (rowmax_apply _ _ r)

theorem pay11_apply (L W : FVec Ideal S512x1024 .f32) (T : FVec Ideal S512x1 .f32) (mx mx' ex : Vec Ideal S512x1 .f32)
    (r : Fin 512) :
    k0_pay11 (F := Ideal) L W T mx mx' ex (ix2 r 0)
      = Ideal.exp (mx' (ix2 r 0) - max (mx (ix2 r 0)) (T (ix2 r 0))) * ex (ix2 r 0)
        + ∑ k : Fin 1024, Ideal.exp (L (ix2 r k) - max (mx (ix2 r 0)) (T (ix2 r 0))) * W (ix2 r k) := by
  unfold k0_pay11
  rw [shapeCast_self]
  refine congrArg₂ (· + ·) rfl ?_
  refine (col_apply _ r 0).trans ((rowsum_apply _ _ r).trans (Finset.sum_congr rfl fun k _ => ?_))
  refine congrArg₂ (· * ·) (congrArg Ideal.exp (congrArg₂ (· - ·) rfl ?_)) rfl
  exact bcol_apply _ r k

theorem pay13_apply (L Q : FVec Ideal S512x1024 .f32) (ps : Vec Ideal S512x1 .f32) (r : Fin 512) :
    k0_pay13 (F := Ideal) L Q ps (ix2 r 0) = ps (ix2 r 0) + ∑ k : Fin 1024, Q (ix2 r k) * L (ix2 r k) := by
  unfold k0_pay13
  rw [shapeCast_self]
  refine congrArg₂ (· + ·) rfl ?_
  exact (col_apply _ r 0).trans (rowsum_apply _ _ r)

theorem pay14_apply (Q : FVec Ideal S512x1024 .f32) (ct : Vec Ideal S512x1 .f32) (r : Fin 512) :
    k0_pay14 (F := Ideal) Q ct (ix2 r 0) = ct (ix2 r 0) + ∑ k : Fin 1024, Q (ix2 r k) := by
  unfold k0_pay14
  rw [shapeCast_self]
  refine congrArg₂ (· + ·) rfl ?_
  exact (col_apply _ r 0).trans (rowsum_apply _ _ r)

theorem closeRow_apply (mx ex ps ct : Vec Ideal S512x1 .f32) (j : S512x1.Idx) :
    closeRow (F := Ideal) mx ex ps ct j
      = Ideal.ofBits .f32 0x00000000#32
        - Ideal.div (ps j - mx j * ct j - Ideal.log (ex j) * ct j)
            (Scalar.select (Ideal.cmp .ogt (ct j) (Ideal.ofBits .f32 0x00000000#32)) (ct j) (Ideal.ofBits .f32 0x3F800000#32)) := rfl

/-! ## The logits: a contraction over the feature axis, scaled by the named reciprocal temperature -/

/-- The kernel's named constant denotes, at the ideal instance, the exact reciprocal of the whole-row program's
    divisor: 2^27 / 9395241. -/
theorem inv_temp : Named.named (F := Ideal) κ "inv_temp" (φ := .f32) 0x41649249#32 = ((134217728 / 9395241 : ℝ) : EReal) :=
  IdealRules.named_const.ideal_named_scalar _ _ _ _ rfl

abbrev DD : DotDims S512x128 S1024x128 S512x1024 := dot_S512x128_S1024x128_S512x1024_1_1_0_0_n_n

theorem lhs0 (j : S512x1024.Idx) (q : DD.contr.Idx) : (DD.lhsIdx j q 0).val = (j 0).val := by
  unfold DotDims.lhsIdx
  rw [dif_neg (show ¬(0 : Fin S512x128.rank) ∈ DD.lhsBatch by decide), dif_pos (show (0 : Fin S512x128.rank) ∈ DD.lhsNonContracting by decide)]
  rfl
theorem lhs1 (j : S512x1024.Idx) (q : DD.contr.Idx) : (DD.lhsIdx j q 1).val = (q ⟨0, by decide⟩).val :=
  DD.lhsIdx_val_of_single rfl j q
theorem rhs0 (j : S512x1024.Idx) (q : DD.contr.Idx) : (DD.rhsIdx j q 0).val = (j 1).val := by
  unfold DotDims.rhsIdx
  rw [dif_neg (show ¬(0 : Fin S1024x128.rank) ∈ DD.rhsBatch by decide), dif_pos (show (0 : Fin S1024x128.rank) ∈ DD.rhsNonContracting by decide)]
  rfl
theorem rhs1 (j : S512x1024.Idx) (q : DD.contr.Idx) : (DD.rhsIdx j q 1).val = (q ⟨0, by decide⟩).val :=
  DD.rhsIdx_val_of_single rfl j q

/-- The tile's product at (r, k): the sum over the 128 features of anchor row r times key row k. -/
theorem dot_apply (l : FVec Ideal S512x128 .bf16) (rr : FVec Ideal S1024x128 .bf16) (r : Fin 512) (k : Fin 1024) :
    matmul DD none l rr (constant S512x1024 .f32 0x00000000#32) (ix2 r k) = ∑ d : Fin 128, l (ix2 r d) * rr (ix2 k d) := by
  simp only [matmul]
  rw [Ideal.matmul_constant_zero_apply, ← Equiv.sum_comp (contrEquiv1 DD 128 rfl rfl).symm]
  refine Finset.sum_congr rfl fun d _ => ?_
  have hk := contrEquiv1_symm_val DD 128 rfl rfl d
  have el : DD.lhsIdx (ix2 r k) ((contrEquiv1 DD 128 rfl rfl).symm d) = ix2 r d := funext fun a => Fin.ext (by
    match a with
    | ⟨0, _⟩ => exact lhs0 _ _
    | ⟨1, _⟩ => exact (lhs1 _ _).trans hk)
  have er : DD.rhsIdx (ix2 r k) ((contrEquiv1 DD 128 rfl rfl).symm d) = ix2 k d := funext fun a => Fin.ext (by
    match a with
    | ⟨0, _⟩ => exact rhs0 _ _
    | ⟨1, _⟩ => exact (rhs1 _ _).trans hk)
  rw [el, er]

theorem logits_apply (x0 : Vec Ideal S512x128 .f32) (x1 : Vec Ideal S1024x128 .f32) (r : Fin 512) (k : Fin 1024) :
    k0_pay6 (F := Ideal) x0 x1 (ix2 r k)
      = (∑ d : Fin 128, x0 (ix2 r d) * x1 (ix2 k d)) * ((134217728 / 9395241 : ℝ) : EReal) := by
  unfold k0_pay6
  rw [shapeCast_self, shapeCast_self]
  refine congrArg₂ (· * ·) ?_ inv_temp
  exact dot_apply _ _ r k

/-! ## The self-exclusion weights and the positive-pair weights -/

theorem word_tile (a b : ℕ) (s : ℕ) : BitVec.ofNat 32 a + BitVec.ofNat 32 b * BitVec.ofNat 32 s = BitVec.ofNat 32 (b * s + a) := by
  apply BitVec.eq_of_toNat_eq
  simp only [BitVec.toNat_add, BitVec.toNat_mul, BitVec.toNat_ofNat]
  rw [Nat.add_comm (b * s) a]
  simp [Nat.add_mod, Nat.mul_mod]

/-- The self-exclusion weight the tile at grid position `i` computes at (r, k): zero on the row's own column, one
    elsewhere, the row and the column taken absolutely. -/
theorem lm_apply (i : grid0.Coords) (r : Fin 512) (k : Fin 1024) :
    k0_pay7 (F := Ideal) i (ix2 r k)
      = Scalar.select (ownCol ((i 0).val * 512 + r.val) ((i 1).val * 1024 + k.val))
          (Ideal.ofBits .f32 0x00000000#32) (Ideal.ofBits .f32 0x3F800000#32) := by
  unfold k0_pay7 ownCol
  show Scalar.select (IntOp.cmpi .eq
      (IntOp.addi (iota .tc S512x1024 32 [1] iota_S512x1024_d1_w32 (ix2 r k)) (Scalar.muli (BitVec.ofNat 32 (i 1).val) 1024#32))
      (IntOp.addi 12288#32 (IntOp.addi (iota .tc S512x1024 32 [0] iota_S512x1024_d0_w32 (ix2 r k)) (Scalar.muli (BitVec.ofNat 32 (i 0).val) 512#32)))) _ _ = _
  rw [iota_single_apply, iota_single_apply]
  show Scalar.select (IntOp.cmpi .eq (BitVec.ofNat 32 k.val + BitVec.ofNat 32 (i 1).val * BitVec.ofNat 32 1024)
      (BitVec.ofNat 32 12288 + (BitVec.ofNat 32 r.val + BitVec.ofNat 32 (i 0).val * BitVec.ofNat 32 512))) _ _ = _
  rw [word_tile, word_tile, word_off]
  rfl

/-- The positive-pair weight at (r, k): label agreement (one or zero) times the self-exclusion weight. -/
theorem mk_apply (i : grid0.Coords) (x2 : Vec Ideal S512x1 .i32) (x3 : Vec Ideal S1x1024 .i32) (r : Fin 512) (k : Fin 1024) :
    k0_pay8 (F := Ideal) i x2 x3 (ix2 r k)
      = ((((IntOp.cmpi .eq (x2 (ix2 r 0)) (x3 (ix2 0 k))).setWidth 32).toInt : ℝ) : EReal) * k0_pay7 (F := Ideal) i (ix2 r k) := by
  unfold k0_pay8
  rw [shapeCast_self]
  refine congrArg₂ (· * ·) ?_ rfl
  show (((((IntOp.cmpi .eq (broadcastTo S512x1024 x2 broadcasts_S512x1_S512x1024 (ix2 r k))
      (broadcastTo S512x1024 x3 broadcasts_S1x1024_S512x1024 (ix2 r k))).setWidth 32).toInt : ℝ) : EReal)) = _
  rw [bcol_apply, brow_apply]

/-! ## The weights as reals -/

theorem lm_real (i : grid0.Coords) (r : Fin 512) (k : Fin 1024) :
    k0_pay7 (F := Ideal) i (ix2 r k) = ((lmR ((i 0).val * 512 + r.val) ((i 1).val * 1024 + k.val) : ℝ) : EReal) := by
  rw [lm_apply]
  unfold lmR Scalar.select
  split_ifs
  · rw [Cert.ECoe.ofBits_zero]; rfl
  · rw [Cert.ECoe.ofBits_one]; rfl

theorem mk_real (i : grid0.Coords) (x2 : Vec Ideal S512x1 .i32) (x3 : Vec Ideal S1x1024 .i32) (r : Fin 512) (k : Fin 1024) :
    k0_pay8 (F := Ideal) i x2 x3 (ix2 r k)
      = ((agree (x2 (ix2 r 0)) (x3 (ix2 0 k)) * lmR ((i 0).val * 512 + r.val) ((i 1).val * 1024 + k.val) : ℝ) : EReal) := by
  rw [mk_apply, lm_real, bit_toInt, EReal.coe_mul]
  rfl

/-! ## A row's carried state, and what one tile does to it -/

open Cert.RowLaw Cert.ECoe

/-- After `n` columns a row carries: some real shift, the exponential sum under that shift, the weighted sum of the
    logits and the count of positive pairs. -/
def RowState (X LM MK : ℕ → ℝ) (n : ℕ) (mx ex ps ct : EReal) : Prop :=
  ∃ M : ℝ, mx = (M : EReal) ∧ ex = ((shiftSum X LM M n : ℝ) : EReal) ∧ ps = ((posSum X MK n : ℝ) : EReal)
    ∧ ct = ((cnt MK n : ℝ) : EReal)

theorem max_coe (a b : ℝ) : max (a : EReal) (b : EReal) = ((max a b : ℝ) : EReal) :=
  (EReal.coe_strictMono.monotone.map_max).symm

/-- The tile's row maximum of real logits is a real. -/
theorem tile_max_real (x0 : Vec Ideal S512x128 .f32) (x1 : Vec Ideal S1024x128 .f32) (r : Fin 512) (X : ℕ → ℝ) (n0 : ℕ)
    (hX : ∀ k : Fin 1024, k0_pay6 (F := Ideal) x0 x1 (ix2 r k) = ((X (n0 + k.val) : ℝ) : EReal)) :
    ∃ T : ℝ, k0_pay9 (F := Ideal) x0 x1 (ix2 r 0) = (T : EReal) := by
  rw [pay9_apply]
  exact fold_max_coe _ Finset.univ_nonempty _ (fun k => ⟨_, hX k⟩)

/-- A middle or last tile: 1024 more columns. -/
theorem row_step (i : grid0.Coords) (x0 : Vec Ideal S512x128 .f32) (x1 : Vec Ideal S1024x128 .f32)
    (x2 : Vec Ideal S512x1 .i32) (x3 : Vec Ideal S1x1024 .i32) (mx ex ps ct : Vec Ideal S512x1 .f32) (r : Fin 512)
    (X LM MK : ℕ → ℝ) (n0 : ℕ)
    (hX : ∀ k : Fin 1024, k0_pay6 (F := Ideal) x0 x1 (ix2 r k) = ((X (n0 + k.val) : ℝ) : EReal))
    (hW : ∀ k : Fin 1024, k0_pay7 (F := Ideal) i (ix2 r k) = ((LM (n0 + k.val) : ℝ) : EReal))
    (hQ : ∀ k : Fin 1024, k0_pay8 (F := Ideal) i x2 x3 (ix2 r k) = ((MK (n0 + k.val) : ℝ) : EReal))
    (h : RowState X LM MK n0 (mx (ix2 r 0)) (ex (ix2 r 0)) (ps (ix2 r 0)) (ct (ix2 r 0))) :
    RowState X LM MK (n0 + 1024) (stepMax x0 x1 mx (ix2 r 0)) (stepExp i x0 x1 mx ex (ix2 r 0))
      (stepPos i x0 x1 x2 x3 ps (ix2 r 0)) (stepCnt i x2 x3 ct (ix2 r 0)) := by
  obtain ⟨M, hm, he, hp, hc⟩ := h
  obtain ⟨T, hT⟩ := tile_max_real x0 x1 r X n0 hX
  refine ⟨max M T, ?_, ?_, ?_, ?_⟩
  · rw [stepMax_apply, hm, hT, max_coe]
  · unfold stepExp
    rw [pay11_apply, hm, he, hT, max_coe, exp_sub_coe, ← EReal.coe_mul]
    have hs : ∑ k : Fin 1024, Ideal.exp (k0_pay6 (F := Ideal) x0 x1 (ix2 r k) - ((max M T : ℝ) : EReal)) * k0_pay7 (F := Ideal) i (ix2 r k)
        = ((∑ k ∈ Finset.range 1024, Real.exp (X (n0 + k) - max M T) * LM (n0 + k) : ℝ) : EReal) :=
      sum_coe_fin _ (fun k => Real.exp (X (n0 + k) - max M T) * LM (n0 + k)) (fun k => by
        rw [hX k, hW k, exp_sub_coe, ← EReal.coe_mul])
    rw [hs, ← EReal.coe_add, shiftSum_step]
  · unfold stepPos
    rw [pay13_apply, hp]
    have hs : ∑ k : Fin 1024, k0_pay8 (F := Ideal) i x2 x3 (ix2 r k) * k0_pay6 (F := Ideal) x0 x1 (ix2 r k)
        = ((∑ k ∈ Finset.range 1024, MK (n0 + k) * X (n0 + k) : ℝ) : EReal) :=
      sum_coe_fin _ (fun k => MK (n0 + k) * X (n0 + k)) (fun k => by rw [hQ k, hX k, ← EReal.coe_mul])
    rw [hs, ← EReal.coe_add, posSum_step]
  · unfold stepCnt
    rw [pay14_apply, hc]
    have hs : ∑ k : Fin 1024, k0_pay8 (F := Ideal) i x2 x3 (ix2 r k)
        = ((∑ k ∈ Finset.range 1024, MK (n0 + k) : ℝ) : EReal) :=
      sum_coe_fin _ (fun k => MK (n0 + k)) (fun k => hQ k)
    rw [hs, ← EReal.coe_add, cnt_step]

theorem pay2_apply (j : S512x1.Idx) : k0_pay2 (F := Ideal) j = (⊥ : EReal) := by
  unfold k0_pay2; rw [shapeCast_self]; exact ofBits_neg_inf
theorem pay3_apply (j : S512x1.Idx) : k0_pay3 (F := Ideal) j = (0 : EReal) := by
  unfold k0_pay3; rw [shapeCast_self]; exact ofBits_zero
theorem pay4_apply (j : S512x1.Idx) : k0_pay4 (F := Ideal) j = (0 : EReal) := by
  unfold k0_pay4; rw [shapeCast_self]; exact ofBits_zero
theorem pay5_apply (j : S512x1.Idx) : k0_pay5 (F := Ideal) j = (0 : EReal) := by
  unfold k0_pay5; rw [shapeCast_self]; exact ofBits_zero

/-- The first tile of a row tile: from the reset values (−∞, 0, 0, 0) to the state after 1024 columns. The rescaling
    factor is exp(−∞) = 0 against a zero sum, so nothing of the reset survives but the tile's own sums. -/
theorem row_first (i : grid0.Coords) (x0 : Vec Ideal S512x128 .f32) (x1 : Vec Ideal S1024x128 .f32)
    (x2 : Vec Ideal S512x1 .i32) (x3 : Vec Ideal S1x1024 .i32) (r : Fin 512) (X LM MK : ℕ → ℝ)
    (hX : ∀ k : Fin 1024, k0_pay6 (F := Ideal) x0 x1 (ix2 r k) = ((X (0 + k.val) : ℝ) : EReal))
    (hW : ∀ k : Fin 1024, k0_pay7 (F := Ideal) i (ix2 r k) = ((LM (0 + k.val) : ℝ) : EReal))
    (hQ : ∀ k : Fin 1024, k0_pay8 (F := Ideal) i x2 x3 (ix2 r k) = ((MK (0 + k.val) : ℝ) : EReal)) :
    RowState X LM MK (0 + 1024) (stepMax (F := Ideal) x0 x1 (k0_pay2 (F := Ideal)) (ix2 r 0))
      (stepExp (F := Ideal) i x0 x1 (k0_pay2 (F := Ideal)) (k0_pay3 (F := Ideal)) (ix2 r 0))
      (stepPos (F := Ideal) i x0 x1 x2 x3 (k0_pay4 (F := Ideal)) (ix2 r 0))
      (stepCnt (F := Ideal) i x2 x3 (k0_pay5 (F := Ideal)) (ix2 r 0)) := by
  obtain ⟨T, hT⟩ := tile_max_real x0 x1 r X 0 hX
  refine ⟨T, ?_, ?_, ?_, ?_⟩
  · rw [stepMax_apply, pay2_apply, hT, max_eq_right bot_le]
  · unfold stepExp
    rw [pay11_apply, pay2_apply, pay3_apply, hT, max_eq_right bot_le, exp_bot_sub_coe, mul_zero, zero_add]
    have hs : ∑ k : Fin 1024, Ideal.exp (k0_pay6 (F := Ideal) x0 x1 (ix2 r k) - ((T : ℝ) : EReal)) * k0_pay7 (F := Ideal) i (ix2 r k)
        = ((∑ k ∈ Finset.range 1024, Real.exp (X (0 + k) - T) * LM (0 + k) : ℝ) : EReal) :=
      sum_coe_fin _ (fun k => Real.exp (X (0 + k) - T) * LM (0 + k)) (fun k => by
        rw [hX k, hW k, exp_sub_coe, ← EReal.coe_mul])
    rw [hs]
    have := shiftSum_step X LM 0 T 0 1024
    rw [show shiftSum X LM 0 0 = 0 from by simp [shiftSum], mul_zero, zero_add] at this
    rw [this]
  · unfold stepPos
    rw [pay13_apply, pay4_apply, zero_add]
    have hs : ∑ k : Fin 1024, k0_pay8 (F := Ideal) i x2 x3 (ix2 r k) * k0_pay6 (F := Ideal) x0 x1 (ix2 r k)
        = ((∑ k ∈ Finset.range 1024, MK (0 + k) * X (0 + k) : ℝ) : EReal) :=
      sum_coe_fin _ (fun k => MK (0 + k) * X (0 + k)) (fun k => by rw [hQ k, hX k, ← EReal.coe_mul])
    rw [hs]
    have := posSum_step X MK 0 1024
    rw [show posSum X MK 0 = 0 from by simp [posSum], zero_add] at this
    rw [this]
  · unfold stepCnt
    rw [pay14_apply, pay5_apply, zero_add]
    have hs : ∑ k : Fin 1024, k0_pay8 (F := Ideal) i x2 x3 (ix2 r k)
        = ((∑ k ∈ Finset.range 1024, MK (0 + k) : ℝ) : EReal) :=
      sum_coe_fin _ (fun k => MK (0 + k)) (fun k => hQ k)
    rw [hs]
    have := cnt_step MK 0 1024
    rw [show cnt MK 0 = 0 from by simp [cnt], zero_add] at this
    rw [this]

theorem select_safe (C : ℝ) :
    Scalar.select (Ideal.cmp .ogt (C : EReal) 0) (C : EReal) 1 = ((safe C : ℝ) : EReal) := by
  unfold Scalar.select Ideal.cmp safe
  by_cases h : 0 < C
  · have h' : (0 : EReal) < (C : EReal) := EReal.coe_pos.mpr h
    simp [h, h']
  · have h' : ¬(0 : EReal) < (C : EReal) := fun hh => h (EReal.coe_pos.mp hh)
    simp [h, h']

/-- The last tile's closing step: the row's value, whatever the carried shift is. -/
theorem row_close (mx ex ps ct : Vec Ideal S512x1 .f32) (j : S512x1.Idx) (X LM MK : ℕ → ℝ) (N : ℕ)
    (hpos : 0 < expSum X LM N) (h : RowState X LM MK N (mx j) (ex j) (ps j) (ct j)) :
    closeRow (F := Ideal) mx ex ps ct j = ((rowVal X LM MK N : ℝ) : EReal) := by
  obtain ⟨M, hm, he, hp, hc⟩ := h
  rw [closeRow_apply, hm, he, hp, hc, ofBits_zero, ofBits_one, select_safe, log_coe_pos (shiftSum_pos hpos M),
    ← EReal.coe_mul, ← EReal.coe_mul, ← EReal.coe_sub, ← EReal.coe_sub, div_coe_coe _ (safe_ne_zero _),
    ← EReal.coe_zero, ← EReal.coe_sub, tiled_form hpos M]

/-- The tile's logit at (r, k) from real feature rows: the inner product over the 128 features times the inverse
    temperature. -/
theorem logits_real (x0 : Vec Ideal S512x128 .f32) (x1 : Vec Ideal S1024x128 .f32) (r : Fin 512) (k : Fin 1024)
    (a b : ℕ → ℝ) (ha : ∀ d : Fin 128, x0 (ix2 r d) = ((a d.val : ℝ) : EReal))
    (hb : ∀ d : Fin 128, x1 (ix2 k d) = ((b d.val : ℝ) : EReal)) :
    k0_pay6 (F := Ideal) x0 x1 (ix2 r k) = (((∑ d ∈ Finset.range 128, a d * b d) * invTemp : ℝ) : EReal) := by
  rw [logits_apply]
  have hs : ∑ d : Fin 128, x0 (ix2 r d) * x1 (ix2 k d) = ((∑ d ∈ Finset.range 128, a d * b d : ℝ) : EReal) :=
    sum_coe_fin _ (fun d => a d * b d) (fun d => by rw [ha d, hb d, ← EReal.coe_mul])
  rw [hs, ← EReal.coe_mul]
  rfl

end Cert.KernelIdeal.Tile

end
-- ==== Proof.Blocks.lean ====
/-
  The windows' blocks read at an index, in terms of the arguments as launched.

  The grid is 8 row tiles by 16 key tiles, the key tile moving fastest: point `t` is row tile `t / 16`, key tile
  `t % 16`. At point `t` the anchor window holds rows `(t / 16) · 512 + r` of the features, the key window rows
  `(t % 16) · 1024 + k` of the memory bank, the anchor-label window the labels of rows `12288 + (t / 16) · 512 + r`,
  and the key-label window the labels of rows `(t % 16) · 1024 + k` (laid out as a row). The features and the memory
  bank reach the region through a cast that drops their leading unit axis, the key labels through two casts
  ([16384, 1] to [16384] to [1, 16384]).
-/
import proofs.«135526_j36172214567215_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.StableHlo

namespace Cert.KernelIdeal.Blocks

open Cert.KernelIdeal Cert.KernelIdeal.Gen

variable {F : FTy → Type} [FloatOps F] [Named F]
variable (m : (ℓ : Loc nD τ sig) → Buf (Elt F) ℓ)

/-- The printed index maps and grid coordinates, decided once over the 128 points. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 24 + t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ (grid0.coords t 0).val = t.val / 16 ∧ (grid0.coords t 1).val = t.val % 16 :=
  (by decide +kernel : ∀ t : Fin grid0.N, _)

theorem t_lt (t : Fin cfg0.N) : t.val < 128 := lt_of_lt_of_eq t.isLt (show cfg0.N = 128 from N_0)

/-! ## The arrays the host writes before the region -/

theorem V_v1 (c : Dev nD) : (V m c main_v1 : S4096x128.Idx → Elt F .f32)
    = shapeCast S4096x128 (m ((c : Thread nD τ).loc main_arg2)) shapeCasts_S1x4096x128_S4096x128 := by
  show StableHlo.after hostOps0 (fun b => m (c, b)) (Proc.devRef .tc main_v1) = _
  after_results
  rfl

theorem V_v0 (c : Dev nD) : (V m c main_v0 : S16384x128.Idx → Elt F .f32)
    = shapeCast S16384x128 (m ((c : Thread nD τ).loc main_arg0)) shapeCasts_S1x16384x128_S16384x128 := by
  show StableHlo.after hostOps0 (fun b => m (c, b)) (Proc.devRef .tc main_v0) = _
  after_results
  rfl

theorem V_v3 (c : Dev nD) : (V m c main_v3 : S1x16384.Idx → Elt F .i32)
    = shapeCast S1x16384 (shapeCast S16384 (m ((c : Thread nD τ).loc main_arg1)) shapeCasts_S16384x1_S16384) shapeCasts_S16384_S1x16384 := by
  show StableHlo.after hostOps0 (fun b => m (c, b)) (Proc.devRef .tc main_v3) = _
  after_results
  rfl

/-! ## The blocks -/

/-- Anchor window: row `r`, feature `d` of the block at point `t` is row `(t / 16) · 512 + r` of the features. -/
theorem blk0_apply (c : Dev nD) (t : Fin cfg0.N) (r : Fin 512) (d : Fin 128) :
    (iblk m c 0 t : Vec F S512x128 .f32) (ix2 r d)
      = m ((c : Thread nD τ).loc main_arg2)
          (ix3 (0 : Fin 1) (⟨t.val / 16 * 512 + r.val, by have := t_lt t; omega⟩ : Fin 4096) d) := by
  unfold iblk
  rw [View.read_apply]
  show V m c main_v1 (((cfg0.win 0).blk t).view.emb (ix2 r d)) = _
  obtain ⟨e0, e1, -⟩ := idx_facts t
  have hemb : ((cfg0.win 0).blk t).view.emb (ix2 r d)
      = ix2 (⟨t.val / 16 * 512 + r.val, by have := t_lt t; omega⟩ : Fin 4096) d := funext fun a => Fin.ext (by
    match a with
    | ⟨0, _⟩ => show win0_0.index t (0 : Fin 2) * 512 + 1 * r.val = t.val / 16 * 512 + r.val; omega
    | ⟨1, _⟩ => show win0_0.index t (1 : Fin 2) * 128 + 1 * d.val = d.val; omega)
  rw [hemb, V_v1]
  exact shapeCast_1ab_ab_apply _ _ _ _

/-- Key window: row `k`, feature `d` of the block at point `t` is row `(t % 16) · 1024 + k` of the memory bank. -/
theorem blk1_apply (c : Dev nD) (t : Fin cfg0.N) (k : Fin 1024) (d : Fin 128) :
    (iblk m c 1 t : Vec F S1024x128 .f32) (ix2 k d)
      = m ((c : Thread nD τ).loc main_arg0)
          (ix3 (0 : Fin 1) (⟨t.val % 16 * 1024 + k.val, by omega⟩ : Fin 16384) d) := by
  unfold iblk
  rw [View.read_apply]
  show V m c main_v0 (((cfg0.win 1).blk t).view.emb (ix2 k d)) = _
  obtain ⟨-, -, e0, e1, -⟩ := idx_facts t
  have hemb : ((cfg0.win 1).blk t).view.emb (ix2 k d)
      = ix2 (⟨t.val % 16 * 1024 + k.val, by omega⟩ : Fin 16384) d := funext fun a => Fin.ext (by
    match a with
    | ⟨0, _⟩ => show win0_1.index t (0 : Fin 2) * 1024 + 1 * k.val = t.val % 16 * 1024 + k.val; omega
    | ⟨1, _⟩ => show win0_1.index t (1 : Fin 2) * 128 + 1 * d.val = d.val; omega)
  rw [hemb, V_v0]
  exact shapeCast_1ab_ab_apply _ _ _ _

/-- Anchor-label window: row `r` of the block at point `t` is the label of row `12288 + (t / 16) · 512 + r`. -/
theorem blk2_apply (c : Dev nD) (t : Fin cfg0.N) (r : Fin 512) (z : Fin 1) :
    (iblk m c 2 t : Vec F S512x1 .i32) (ix2 r z)
      = m ((c : Thread nD τ).loc main_arg1)
          (ix2 (⟨12288 + (t.val / 16 * 512 + r.val), by have := t_lt t; omega⟩ : Fin 16384) (0 : Fin 1)) := by
  unfold iblk
  rw [View.read_apply]
  show V m c main_arg1 (((cfg0.win 2).blk t).view.emb (ix2 r z)) = _
  obtain ⟨-, -, -, -, e0, e1, -⟩ := idx_facts t
  have hemb : ((cfg0.win 2).blk t).view.emb (ix2 r z)
      = ix2 (⟨12288 + (t.val / 16 * 512 + r.val), by have := t_lt t; omega⟩ : Fin 16384) (0 : Fin 1) := funext fun a => Fin.ext (by
    match a with
    | ⟨0, _⟩ => show win0_2.index t (0 : Fin 2) * 512 + 1 * r.val = 12288 + (t.val / 16 * 512 + r.val); omega
    | ⟨1, _⟩ => show win0_2.index t (1 : Fin 2) * 1 + 1 * z.val = 0; have := z.isLt; omega)
  rw [hemb, V_main_arg1]

/-- Key-label window: column `k` of the block at point `t` is the label of row `(t % 16) · 1024 + k`. -/
theorem blk3_apply (c : Dev nD) (t : Fin cfg0.N) (z : Fin 1) (k : Fin 1024) :
    (iblk m c 3 t : Vec F S1x1024 .i32) (ix2 z k)
      = m ((c : Thread nD τ).loc main_arg1)
          (ix2 (⟨t.val % 16 * 1024 + k.val, by omega⟩ : Fin 16384) (0 : Fin 1)) := by
  unfold iblk
  rw [View.read_apply]
  show V m c main_v3 (((cfg0.win 3).blk t).view.emb (ix2 z k)) = _
  obtain ⟨-, -, -, -, -, -, e0, e1, -⟩ := idx_facts t
  have hemb : ((cfg0.win 3).blk t).view.emb (ix2 z k)
      = ix2 (0 : Fin 1) (⟨t.val % 16 * 1024 + k.val, by omega⟩ : Fin 16384) := funext fun a => Fin.ext (by
    match a with
    | ⟨0, _⟩ => show win0_3.index t (0 : Fin 2) * 1 + 1 * z.val = 0; have := z.isLt; omega
    | ⟨1, _⟩ => show win0_3.index t (1 : Fin 2) * 1024 + 1 * k.val = t.val % 16 * 1024 + k.val; omega)
  rw [hemb, V_v3]
  refine (shapeCast_a_1a_apply _ _ _ _).trans ?_
  exact shapeCast_apply (s := S16384x1) (t := S16384) _ shapeCasts_S16384x1_S16384 (ix1 _) (ix2 _ (0 : Fin 1)) (by
    rw [Shape.rowMajor_val_two, Shape.rowMajor_val_one]
    show (t.val % 16 * 1024 + k.val) * 1 + 0 = t.val % 16 * 1024 + k.val
    omega)

end Cert.KernelIdeal.Blocks

end
-- ==== Proof.Rows.lean ====
/-
  The state of every anchor row after every grid point, and the row values the last key tile stores.

  Point `n` is row tile `n / 16`, key tile `n % 16`. After it, row `r` of the tile's carried columns is the state of
  anchor row `R = (n / 16) · 512 + r` after its first `(n % 16 + 1) · 1024` columns: by induction on the point, the
  first key tile of a row tile starting from the reset values and every later one from what the point before left.
  At the last key tile the output block's row `r` is row `R`'s value over all 16384 columns.
-/
import proofs.«135526_j36172214567215_1_alg».proof.Proof.Pieces
import proofs.«135526_j36172214567215_1_alg».proof.Proof.Tile
import proofs.«135526_j36172214567215_1_alg».proof.Proof.Blocks

noncomputable section

open Idealize.ShloMosaic Idealize.ShloMosaic.TcCoe Idealize.SL.Sem Idealize.ShloMosaic.ValueIdx

namespace Cert.KernelIdeal.Rows

open Cert.KernelIdeal Cert.KernelIdeal.Gen Cert.KernelIdeal.Pieces Cert.KernelIdeal.Tile Cert.KernelIdeal.Blocks
open Cert.Data Cert.RowLaw Cert.ECoe

variable (m : (ℓ : Loc nD τ sig) → Buf (Elt Ideal) ℓ) (c : Dev nD)

/-- The three arguments as launched on core `c`. -/
abbrev aFeat : SFeat.Idx → EReal := m ((c : Thread nD τ).loc main_arg2)
abbrev aBank : SBank.Idx → EReal := m ((c : Thread nD τ).loc main_arg0)
abbrev aLab : SLab.Idx → BitVec 32 := m ((c : Thread nD τ).loc main_arg1)

/-! ## The tile's three arrays are the rows' data -/

theorem tile_logit (hF2 : Finite (aFeat m c)) (hF0 : Finite (aBank m c)) (t : Fin cfg0.N) (r : Fin 512) (k : Fin 1024) :
    k0_pay6 (F := Ideal) (iblk m c 0 t) (iblk m c 1 t) (ix2 r k)
      = ((logit (aFeat m c) (aBank m c) (t.val / 16 * 512 + r.val) (t.val % 16 * 1024 + k.val) : ℝ) : EReal) :=
  logits_real (iblk m c 0 t) (iblk m c 1 t) r k
    (feat (aFeat m c) (t.val / 16 * 512 + r.val)) (bank (aBank m c) (t.val % 16 * 1024 + k.val))
    (fun d => (blk0_apply m c t r d).trans (feat_coe (aFeat m c) hF2 _ d))
    (fun d => (blk1_apply m c t k d).trans (bank_coe (aBank m c) hF0 _ d))

theorem tile_lm (t : Fin cfg0.N) (r : Fin 512) (k : Fin 1024) :
    k0_pay7 (F := Ideal) (grid0.coords t) (ix2 r k)
      = ((lmR (t.val / 16 * 512 + r.val) (t.val % 16 * 1024 + k.val) : ℝ) : EReal) := by
  obtain ⟨-, -, -, -, -, -, -, -, -, -, g0, g1⟩ := idx_facts t
  rw [lm_real, g0, g1]

theorem tile_mk (t : Fin cfg0.N) (r : Fin 512) (k : Fin 1024) :
    k0_pay8 (F := Ideal) (grid0.coords t) (iblk m c 2 t) (iblk m c 3 t) (ix2 r k)
      = ((mkR (aLab m c) (t.val / 16 * 512 + r.val) (t.val % 16 * 1024 + k.val) : ℝ) : EReal) := by
  obtain ⟨-, -, -, -, -, -, -, -, -, -, g0, g1⟩ := idx_facts t
  refine (mk_real (grid0.coords t) (iblk m c 2 t) (iblk m c 3 t) r k).trans ?_
  rw [blk2_apply m c t r 0, blk3_apply m c t 0 k, g0, g1]
  show ((agree (aLab m c (ix2 (⟨12288 + (t.val / 16 * 512 + r.val), by have := t_lt t; omega⟩ : Fin 16384) (0 : Fin 1)))
      (aLab m c (ix2 (⟨t.val % 16 * 1024 + k.val, by omega⟩ : Fin 16384) (0 : Fin 1))) * lmR _ _ : ℝ) : EReal) = _
  rw [lab_eq (aLab m c), lab_eq (aLab m c)]
  rfl

/-! ## The carried columns after a point, as the named steps -/

set_option maxHeartbeats 1000000 in
theorem col0_first (t : Fin cfg0.N) (h0 : t.val % 16 = 0) :
    (outsAt0 m c t.val t.isLt).2.1 = stepMax (iblk m c 0 t) (iblk m c 1 t) (k0_pay2 (F := Ideal)) := by
  have h1 : ¬t.val % 16 = 15 := by omega
  rw [outsAt0_A m c t h0 h1]
  exact sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

set_option maxHeartbeats 1000000 in
theorem col0_next (t : Fin cfg0.N) (h0 : ¬t.val % 16 = 0) :
    (outsAt0 m c t.val t.isLt).2.1 = stepMax (iblk m c 0 t) (iblk m c 1 t) (outsAt0 m c (t.val - 1) (Nat.lt_of_le_of_lt (Nat.sub_le _ _) t.isLt)).2.1 := by
  by_cases h1 : t.val % 16 = 15
  · rw [outsAt0_C m c t h0 h1]
    exact sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]
    exact sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

set_option maxHeartbeats 1000000 in
theorem col1_first (t : Fin cfg0.N) (h0 : t.val % 16 = 0) :
    (outsAt0 m c t.val t.isLt).2.2.1 = stepExp (grid0.coords t) (iblk m c 0 t) (iblk m c 1 t) (k0_pay2 (F := Ideal)) (k0_pay3 (F := Ideal)) := by
  have h1 : ¬t.val % 16 = 15 := by omega
  rw [outsAt0_A m c t h0 h1]
  exact sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

set_option maxHeartbeats 1000000 in
theorem col1_next (t : Fin cfg0.N) (h0 : ¬t.val % 16 = 0) :
    (outsAt0 m c t.val t.isLt).2.2.1 = stepExp (grid0.coords t) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 := by
  by_cases h1 : t.val % 16 = 15
  · rw [outsAt0_C m c t h0 h1]
    exact sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]
    exact sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

set_option maxHeartbeats 1000000 in
theorem col2_first (t : Fin cfg0.N) (h0 : t.val % 16 = 0) :
    (outsAt0 m c t.val t.isLt).2.2.2.1 = stepPos (grid0.coords t) (iblk m c 0 t) (iblk m c 1 t) (iblk m c 2 t) (iblk m c 3 t) (k0_pay4 (F := Ideal)) := by
  have h1 : ¬t.val % 16 = 15 := by omega
  rw [outsAt0_A m c t h0 h1]
  exact sout_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

set_option maxHeartbeats 1000000 in
theorem col2_next (t : Fin cfg0.N) (h0 : ¬t.val % 16 = 0) :
    (outsAt0 m c t.val t.isLt).2.2.2.1 = stepPos (grid0.coords t) (iblk m c 0 t) (iblk m c 1 t) (iblk m c 2 t) (iblk m c 3 t) (outsAt0 m c (t.val - 1) (Nat.lt_of_le_of_lt (Nat.sub_le _ _) t.isLt)).2.2.2.1 := by
  by_cases h1 : t.val % 16 = 15
  · rw [outsAt0_C m c t h0 h1]
    exact sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]
    exact sout_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

set_option maxHeartbeats 1000000 in
theorem col3_first (t : Fin cfg0.N) (h0 : t.val % 16 = 0) :
    (outsAt0 m c t.val t.isLt).2.2.2.2 = stepCnt (grid0.coords t) (iblk m c 2 t) (iblk m c 3 t) (k0_pay5 (F := Ideal)) := by
  have h1 : ¬t.val % 16 = 15 := by omega
  rw [outsAt0_A m c t h0 h1]
  exact sout_A_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

set_option maxHeartbeats 1000000 in
theorem col3_next (t : Fin cfg0.N) (h0 : ¬t.val % 16 = 0) :
    (outsAt0 m c t.val t.isLt).2.2.2.2 = stepCnt (grid0.coords t) (iblk m c 2 t) (iblk m c 3 t) (outsAt0 m c (t.val - 1) (Nat.lt_of_le_of_lt (Nat.sub_le _ _) t.isLt)).2.2.2.2 := by
  by_cases h1 : t.val % 16 = 15
  · rw [outsAt0_C m c t h0 h1]
    exact sout_C_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]
    exact sout_B_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

set_option maxHeartbeats 1000000 in
/-- The last key tile's output block: the closing step of the columns this point leaves. -/
theorem out_last (t : Fin cfg0.N) (h1 : t.val % 16 = 15) :
    (outsAt0 m c t.val t.isLt).1
      = closeRow (outsAt0 m c t.val t.isLt).2.1 (outsAt0 m c t.val t.isLt).2.2.1 (outsAt0 m c t.val t.isLt).2.2.2.1
          (outsAt0 m c t.val t.isLt).2.2.2.2 := by
  have h0 : ¬t.val % 16 = 0 := by omega
  rw [col0_next m c t h0, col1_next m c t h0, col2_next m c t h0, col3_next m c t h0, outsAt0_C m c t h0 h1]
  exact out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-! ## The invariant -/

/-- The state a point leaves in row `r` of its carried columns. -/
def StateAt (n : ℕ) (h : n < cfg0.N) (r : Fin 512) : Prop :=
  RowState (logit (aFeat m c) (aBank m c) (n / 16 * 512 + r.val)) (lmR (n / 16 * 512 + r.val))
    (mkR (aLab m c) (n / 16 * 512 + r.val)) ((n % 16 + 1) * 1024)
    ((outsAt0 m c n h).2.1 (ix2 r 0)) ((outsAt0 m c n h).2.2.1 (ix2 r 0))
    ((outsAt0 m c n h).2.2.2.1 (ix2 r 0)) ((outsAt0 m c n h).2.2.2.2 (ix2 r 0))

theorem state_first (hF2 : Finite (aFeat m c)) (hF0 : Finite (aBank m c)) (t : Fin cfg0.N) (h0 : t.val % 16 = 0)
    (r : Fin 512) : StateAt m c t.val t.isLt r := by
  unfold StateAt
  rw [col0_first m c t h0, col1_first m c t h0, col2_first m c t h0, col3_first m c t h0,
    show (t.val % 16 + 1) * 1024 = 0 + 1024 from by omega]
  refine row_first (grid0.coords t) (iblk m c 0 t) (iblk m c 1 t) (iblk m c 2 t) (iblk m c 3 t) r _ _ _
    (fun k => ?_) (fun k => ?_) (fun k => ?_)
  · refine (tile_logit m c hF2 hF0 t r k).trans ?_
    rw [show t.val % 16 * 1024 + k.val = 0 + k.val from by omega]
  · refine (tile_lm t r k).trans ?_
    rw [show t.val % 16 * 1024 + k.val = 0 + k.val from by omega]
  · refine (tile_mk m c t r k).trans ?_
    rw [show t.val % 16 * 1024 + k.val = 0 + k.val from by omega]

theorem state_next (hF2 : Finite (aFeat m c)) (hF0 : Finite (aBank m c)) (t : Fin cfg0.N) (h0 : ¬t.val % 16 = 0)
    (r : Fin 512) (hp : StateAt m c (t.val - 1) (Nat.lt_of_le_of_lt (Nat.sub_le _ _) t.isLt) r) :
    StateAt m c t.val t.isLt r := by
  unfold StateAt at hp ⊢
  rw [show (t.val - 1) / 16 = t.val / 16 from by omega, show ((t.val - 1) % 16 + 1) * 1024 = t.val % 16 * 1024 from by omega] at hp
  rw [col0_next m c t h0, col1_next m c t h0, col2_next m c t h0, col3_next m c t h0,
    show (t.val % 16 + 1) * 1024 = t.val % 16 * 1024 + 1024 from by omega]
  exact row_step (grid0.coords t) (iblk m c 0 t) (iblk m c 1 t) (iblk m c 2 t) (iblk m c 3 t) _ _ _ _ r _ _ _ (t.val % 16 * 1024)
    (fun k => tile_logit m c hF2 hF0 t r k) (fun k => tile_lm t r k) (fun k => tile_mk m c t r k) hp

theorem state_at (hF2 : Finite (aFeat m c)) (hF0 : Finite (aBank m c)) :
    ∀ (n : ℕ) (h : n < cfg0.N) (r : Fin 512), StateAt m c n h r := by
  intro n
  induction n with
  | zero => intro h r; exact state_first m c hF2 hF0 ⟨0, h⟩ rfl r
  | succ n ih =>
    intro h r
    by_cases h0 : (n + 1) % 16 = 0
    · exact state_first m c hF2 hF0 ⟨n + 1, h⟩ h0 r
    · exact state_next m c hF2 hF0 ⟨n + 1, h⟩ h0 r (ih (Nat.lt_of_succ_lt h) r)

/-- What the last key tile of row tile `q` stores: row `r` of the block is the value of anchor row `q · 512 + r`. -/
theorem out_row (hF2 : Finite (aFeat m c)) (hF0 : Finite (aBank m c)) (t : Fin cfg0.N) (h1 : t.val % 16 = 15) (r : Fin 512) :
    (outsAt0 m c t.val t.isLt).1 (ix2 r 0)
      = ((rowValue (aFeat m c) (aBank m c) (aLab m c) (t.val / 16 * 512 + r.val) : ℝ) : EReal) := by
  rw [out_last m c t h1]
  have hs := state_at m c hF2 hF0 t.val t.isLt r
  unfold StateAt at hs
  rw [show (t.val % 16 + 1) * 1024 = 16384 from by omega] at hs
  have hR : t.val / 16 * 512 + r.val < 4096 := by have := t_lt t; omega
  exact row_close _ _ _ _ (ix2 r 0) _ _ _ 16384 (expSum_pos_row (aFeat m c) (aBank m c) hR) hs

end Cert.KernelIdeal.Rows

end
-- ==== Proof.Final.lean ====
/-
  The kernel's output array after the region, and its result after the host's sum.

  The output array [4096, 1] is written back once per row tile, by the tile's last key tile: block `q` (rows
  `q · 512 …`) at point `q · 16 + 15`, holding the rows' values. The eight written blocks cover the array, so it ends
  holding row `R`'s value at `(R, 0)`; the host's sum over both axes from zero is then the total of the 4096 values.
-/
import proofs.«135526_j36172214567215_1_alg».proof.Proof.Rows
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Rows
open Cert.Data Cert.RowLaw Cert.ECoe

variable (m : (ℓ : Loc nD τ sig) → Buf (Elt Ideal) ℓ) (ρ : Dev nD → PrngReg)

/-- What the output array ends holding: row `R`'s value at `(R, 0)`. -/
def outArr (c : Dev nD) : S4096x1.Idx → EReal :=
  fun i => ((rowValue (aFeat m c) (aBank m c) (aLab m c) (i 0).val : ℝ) : EReal)

/-- What a writing point writes back is its block of `outArr`. -/
theorem flushed_eq (hF2 : ∀ c, Finite (aFeat m c)) (hF0 : ∀ c, Finite (aBank m c)) (c : Dev nD) (t : Fin cfg0.N)
    (hf : (cfg0.win 4).flush t = true) :
    (dats m 0 c).flushed 4 t = ((cfg0.win 4).blk t).view.read (Elt Ideal) (outArr m c) := by
  have h1 : t.val % 16 = 15 := (flush0_4 t).mp hf
  show (cfg0.win 4).cut (grid0.coords t) ((dats m 0 c).after 4 t) = _
  rw [after0_4]
  have key : ∀ y : S512x1.Idx, (outsAt0 m c t.val t.isLt).1 y = outArr m c (((cfg0.win 4).blk t).view.emb y) := by
    intro y
    obtain ⟨r, z, rfl⟩ : ∃ (r : Fin 512) (z : Fin 1), y = ix2 r z := ⟨y 0, y 1, eq_ix2 y⟩
    obtain rfl : z = 0 := Subsingleton.elim z 0
    rw [out_row m c (hF2 c) (hF0 c) t h1 r]
    unfold outArr
    obtain ⟨-, -, -, -, -, -, -, -, e0, e1, -⟩ := idx_facts t
    have he : ((((cfg0.win 4).blk t).view.emb (ix2 r 0)) 0).val = t.val / 16 * 512 + r.val := by
      show win0_4.index t (0 : Fin 2) * 512 + 1 * r.val = _
      omega
    rw [he]
  funext y
  exact key y

/-- An index of the array is in point `t`'s block iff each coordinate is in the block's range on its axis. -/
theorem mem_blk (t : Fin cfg0.N) (i : S4096x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v4).slice (win0_4.rect t)).set ↔ _
  rw [View.set_slice_whole, Rect.mem_set_unit]
  exact Iff.rfl

/-- The output array after the region. -/
theorem final (hF2 : ∀ c, Finite (aFeat m c)) (hF0 : ∀ c, Finite (aBank m c)) (c : Dev nD) :
    (dats m 0 c).arrAt 4 cfg0.N = outArr m c :=
  (dats m 0 c).arrAt_eq_of_cover 4 (outArr m c) (flushed_eq m hF2 hF0 c) fun i => by
    have hi0 : (i 0).val < 4096 := (i 0).isLt
    have hi1 : (i 1).val < 1 := (i 1).isLt
    have hN : cfg0.N = 128 := N_0
    obtain ⟨t, ht⟩ : ∃ t : Fin cfg0.N, t.val = (i 0).val / 512 * 16 + 15 := ⟨⟨(i 0).val / 512 * 16 + 15, by rw [hN]; omega⟩, rfl⟩
    refine ⟨t, (flush0_4 t).mpr (by omega), ?_⟩
    rw [mem_blk]
    obtain ⟨-, -, -, -, -, -, -, -, e0, e1, -⟩ := idx_facts t
    intro a
    match a with
    | ⟨0, _⟩ =>
      show win0_4.index t (0 : Fin 2) * 512 ≤ (i 0).val ∧ (i 0).val < win0_4.index t (0 : Fin 2) * 512 + 512
      omega
    | ⟨1, _⟩ =>
      show win0_4.index t (1 : Fin 2) * 1 ≤ (i 1).val ∧ (i 1).val < win0_4.index t (1 : Fin 2) * 1 + 1
      omega

/-- The host's sum after the region, read off the frame run's post. -/
theorem tail_eq (hF2 : ∀ c, Finite (aFeat m c)) (hF0 : ∀ c, Finite (aBank m c)) (c : Dev nD) :
    Pipeline.afterTail₀ cfgs (dats m) 0 (V0 m) [hostOps1] c main_v5
      = Host.reduceAdd (F := Ideal) (outArr m c) (constant (F := Ideal) S_ .f32 0x00000000#32) reducesTo_S4096x1_S_d0_1 h_S_ := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = outArr m c := (Pipeline.withArrays_arr spec0 launch0.win.arr_inj c _ _ 4).trans (final m hF2 hF0 c)
  rw [e]

/-- The sum of the output array over both axes, from zero: the total of the rows' values. -/
theorem sum_outArr (c : Dev nD) :
    Host.reduceAdd (F := Ideal) (outArr m c) (constant (F := Ideal) S_ .f32 0x00000000#32) reducesTo_S4096x1_S_d0_1 h_S_
      = fun _ => ((total (aFeat m c) (aBank m c) (aLab m c) : ℝ) : EReal) := by
  funext i
  simp only [Host.reduceAdd, Ideal.hostReduceAdd_def]
  rw [Ideal.hostReduceAdd_total reducesTo_S4096x1_S_d0_1 (fun b => b.elim0)]
  show Ideal.ofBits .f32 0x00000000#32 + ∑ j : S4096x1.Idx, outArr m c j = _
  rw [ofBits_zero, zero_add, sum_idx2]
  have h1 : ∀ a : Fin 4096, ∑ b : Fin 1, outArr m c (ix2 a b)
      = ((rowValue (aFeat m c) (aBank m c) (aLab m c) a.val : ℝ) : EReal) := fun a => by
    rw [Fin.sum_univ_one]
    rfl
  rw [Finset.sum_congr rfl fun a _ => h1 a]
  exact sum_coe_fin _ (fun R => rowValue (aFeat m c) (aBank m c) (aLab m c) R) (fun R => rfl)

/-- The kernel's run, read: its result is the total of the rows' values; its arguments end as launched. -/
theorem run (hF2 : ∀ c, Finite (aFeat m c)) (hF0 : ∀ c, Finite (aBank m c)) :
    θ_run defs (onTc (τ := τ) (main (F := Ideal))) ⟨m, fun _ => 0, ρ⟩ fun r => ∀ c : Dev nD,
      r.2.mem ((c.tc : Thread nD τ).loc main_v5) = (fun _ => ((total (aFeat m c) (aBank m c) (aLab m c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans
        ((tail_eq m hF2 hF0 c).trans (sum_outArr m c)),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.RefRows.lean ====
/-
  The whole-row program, row by row, at the ideal instance.

  For anchor row `R` and column `j` the program forms the logit (inner product of the feature rows, divided by the
  temperature), subtracts the row's maximum `M` (some real: only that it is one matters), and sums
  exp(logit − M) over the columns that are not the row's own; the log-probability is logit − M − log of that sum; the
  row's mean is the positive-pair-weighted sum of log-probabilities over the count of positive pairs (or over 1 when
  there are none). The result is minus the sum of the 4096 means: the total of the rows' values.
-/
import proofs.«135526_j36172214567215_1_alg».proof.Proof.RefRead
import proofs.«135526_j36172214567215_1_alg».proof.Proof.Data
import proofs.«135526_j36172214567215_1_alg».proof.Proof.ECoe
import Idealize.ShloMosaic.Lib.ValueLayout
import Idealize.ShloMosaic.PureOps.Reduce

noncomputable section

open Idealize.ShloMosaic Idealize.ShloMosaic.ValueIdx

namespace Cert.ReferenceIdeal.Rows

open Cert.ReferenceIdeal Cert.ReferenceIdeal.Gen Cert.ReferenceIdeal.ReadP
open Cert.Data Cert.RowLaw Cert.ECoe

variable (x0 : (⟨S1x16384x128, .f32⟩ : BufTy).Contents (Elt Ideal)) (x1 : (⟨S16384x1, .i32⟩ : BufTy).Contents (Elt Ideal)) (x2 : (⟨S1x4096x128, .f32⟩ : BufTy).Contents (Elt Ideal))

/-! ## The arguments through the casts and the transpose -/

theorem v1_at (R : Fin 4096) (d : Fin 128) : val_main_v1 (F := Ideal) x2 (ix2 R d) = x2 (ix3 (0 : Fin 1) R d) := by
  unfold val_main_v1
  exact shapeCast_1ab_ab_apply x2 _ R d

theorem v0_at (j : Fin 16384) (d : Fin 128) : val_main_v0 (F := Ideal) x0 (ix2 j d) = x0 (ix3 (0 : Fin 1) j d) := by
  unfold val_main_v0
  exact shapeCast_1ab_ab_apply x0 _ j d

theorem v2_at (j : Fin 16384) : val_main_v2 (F := Ideal) x1 (ix1 j) = x1 (ix2 j (0 : Fin 1)) := by
  unfold val_main_v2
  exact shapeCast_apply (s := S16384x1) (t := S16384) x1 shapeCasts_S16384x1_S16384 (ix1 j) (ix2 j (0 : Fin 1)) (by
    rw [Shape.rowMajor_val_two, Shape.rowMajor_val_one]
    show j.val * 1 + 0 = j.val
    omega)

/-! ## The logits -/

theorem v24_at (hF2 : Finite x2) (hF0 : Finite x0) (R : Fin 4096) (j : Fin 16384) :
    val_main_v24 (F := Ideal) x0 x2 (ix2 R j)
      = ((∑ d ∈ Finset.range 128, feat x2 R.val d * bank x0 j.val d : ℝ) : EReal) := by
  rw [val_main_v24_apply]
  refine sum_coe_fin _ (fun d => feat x2 R.val d * bank x0 j.val d) (fun d => ?_)
  have el : lidx_main_v24 (ix2 R j) d = ix2 R d := funext fun a => Fin.ext (by match a with | ⟨0, _⟩ => rfl | ⟨1, _⟩ => rfl)
  have er : ridx_main_v24 (ix2 R j) d = ix2 d j := funext fun a => Fin.ext (by match a with | ⟨0, _⟩ => rfl | ⟨1, _⟩ => rfl)
  have et : idx_main_v23 (ix2 d j) = ix2 j d := funext fun a => Fin.ext (by match a with | ⟨0, _⟩ => rfl | ⟨1, _⟩ => rfl)
  rw [el, er, v1_at, val_main_v23_apply, et, v0_at, feat_coe x2 hF2, bank_coe x0 hF0, ← EReal.coe_mul]

theorem v26_at (hF2 : Finite x2) (hF0 : Finite x0) (R : Fin 4096) (j : Fin 16384) :
    val_main_v26 (F := Ideal) x0 x2 (ix2 R j) = ((logit x2 x0 R.val j.val : ℝ) : EReal) := by
  rw [val_main_v26_apply, v24_at x0 x2 hF2 hF0, val_main_v25_apply, val_main_cst_0_apply]
  show Ideal.div _ (Ideal.ofBits .f32 0x3D8F5C29#32) = _
  rw [ofBits_temp, div_coe_coe _ (by norm_num)]
  unfold logit invTemp
  congr 1
  ring

/-! ## The row maximum is a real -/

theorem red : S4096x16384.Reduces [1] S4096 := by decide

theorem red_lift (R : Fin 4096) (k : Fin 16384) : red.lift (ix1 R) k = ix2 R k :=
  funext fun a => Fin.ext (by
    match a with
    | ⟨0, _⟩ => rfl
    | ⟨1, _⟩ => rfl)

theorem v27_real (hF2 : Finite x2) (hF0 : Finite x0) (R : Fin 4096) :
    ∃ M : ℝ, val_main_v27 (F := Ideal) x0 x2 (ix1 R) = (M : EReal) := by
  unfold val_main_v27
  rw [Host.reduce_eq_fold_single FloatOps.maximumf _ _ reducesTo_S4096x16384_S4096_d1 red h_S_]
  show ∃ M : ℝ, (Finset.univ : Finset (Fin 16384)).fold max (Ideal.ofBits .f32 0xFF800000#32)
    (val_main_v26 (F := Ideal) x0 x2 ∘ red.lift (ix1 R)) = (M : EReal)
  rw [ofBits_neg_inf]
  refine fold_max_coe _ ⟨⟨0, by decide⟩, Finset.mem_univ _⟩ _ (fun k => ⟨logit x2 x0 R.val k.val, ?_⟩)
  exact (congrArg (val_main_v26 (F := Ideal) x0 x2) (red_lift R k)).trans (v26_at x0 x2 hF2 hF0 R k)

/-! ## The weights -/

theorem v21_at (R : Fin 4096) (j : Fin 16384) :
    val_main_v21 (F := Ideal) (ix2 R j) = ((lmR R.val j.val : ℝ) : EReal) := by
  rw [val_main_v21_apply, val_main_v20_apply, val_main_cst_apply, val_main_v19_apply, val_main_v18_apply,
    val_main_v16_apply, val_main_v14_apply, val_main_v13_apply, val_main_v17_apply, val_main_v15_apply,
    val_main_v12_apply, val_main_v11_apply, val_main_c_apply, val_main_v10_apply]
  show Ideal.ofBits .f32 0x3F800000#32
      - (((IntOp.cmpi .eq (BitVec.ofNat 32 j.val) (BitVec.ofNat 32 12288 + BitVec.ofNat 32 R.val)).toNat : ℝ) : EReal) = _
  rw [ofBits_one, word_off, bit_toNat, ← EReal.coe_one, ← EReal.coe_sub]
  unfold lmR ownCol
  congr 1
  split_ifs <;> norm_num

theorem v22_at (R : Fin 4096) (j : Fin 16384) :
    val_main_v22 (F := Ideal) x1 (ix2 R j) = ((mkR x1 R.val j.val : ℝ) : EReal) := by
  rw [val_main_v22_apply, v21_at, val_main_v9_apply, val_main_v8_apply, val_main_v6_apply, val_main_v4_apply,
    val_main_v3_apply, val_main_v7_apply, val_main_v5_apply]
  have e6 : idx_main_v3 (idx_main_v4 (idx_main_v6 (ix2 R j)))
      = ix1 (⟨12288 + R.val, by have := R.isLt; omega⟩ : Fin 16384) := funext fun a => Fin.ext (by match a with | ⟨0, _⟩ => rfl)
  have e7 : idx_main_v5 (idx_main_v7 (ix2 R j)) = ix1 j := funext fun a => Fin.ext (by match a with | ⟨0, _⟩ => rfl)
  rw [e6, e7, v2_at, v2_at, lab_eq x1, lab_eq x1]
  show (((IntOp.cmpi .eq (lab x1 (12288 + R.val)) (lab x1 j.val)).toNat : ℝ) : EReal) * _ = _
  rw [bit_toNat, ← EReal.coe_mul]
  rfl

/-! ## One row -/

/-- The row's mean log-probability of its positive pairs is minus its value. -/
theorem v44_at (hF2 : Finite x2) (hF0 : Finite x0) (R : Fin 4096) :
    val_main_v44 (F := Ideal) x0 x1 x2 (ix1 R) = ((-(rowValue x2 x0 x1 R.val) : ℝ) : EReal) := by
  obtain ⟨M, hM⟩ := v27_real x0 x2 hF2 hF0 R
  have hpos := expSum_pos_row x2 x0 (R := R.val) R.isLt
  -- the shifted logit at a column
  have h30 : ∀ j : Fin 16384, val_main_v30 (F := Ideal) x0 x2 (ix2 R j) = ((logit x2 x0 R.val j.val - M : ℝ) : EReal) := by
    intro j
    have e : idx_main_v28 (idx_main_v29 (ix2 R j)) = ix1 R := funext fun a => Fin.ext (by match a with | ⟨0, _⟩ => rfl)
    rw [val_main_v30_apply, v26_at x0 x2 hF2 hF0, val_main_v29_apply, val_main_v28_apply, e, hM]
    show ((logit x2 x0 R.val j.val : ℝ) : EReal) - (M : EReal) = _
    rw [← EReal.coe_sub]
  -- the shifted exponential sum
  have h33 : val_main_v33 (F := Ideal) x0 x2 (ix1 R)
      = ((shiftSum (logit x2 x0 R.val) (lmR R.val) M 16384 : ℝ) : EReal) := by
    rw [val_main_v33_apply, val_main_cst_2_apply]
    have hs : ∑ k : Fin 16384, val_main_v32 (F := Ideal) x0 x2 (idx_main_v33 (ix1 R) k)
        = ((∑ k ∈ Finset.range 16384, Real.exp (logit x2 x0 R.val k - M) * lmR R.val k : ℝ) : EReal) :=
      sum_coe_fin _ (fun k => Real.exp (logit x2 x0 R.val k - M) * lmR R.val k) (fun k => by
        have e : idx_main_v33 (ix1 R) k = ix2 R k := funext fun a => Fin.ext (by match a with | ⟨0, _⟩ => rfl | ⟨1, _⟩ => rfl)
        rw [e, val_main_v32_apply, val_main_v31_apply, h30 k, v21_at, Ideal.hostUnary_exp_def, Ideal.exp_coe]
        show ((Real.exp (logit x2 x0 R.val k.val - M) : ℝ) : EReal) * _ = _
        rw [← EReal.coe_mul])
    rw [hs]
    show Ideal.ofBits .f32 0x00000000#32 + _ = _
    rw [ofBits_zero, zero_add]
    rfl
  -- its logarithm, as the column (R, 0)
  have h35 : val_main_v35 (F := Ideal) x0 x2 (ix2 R (0 : Fin 1))
      = ((Real.log (shiftSum (logit x2 x0 R.val) (lmR R.val) M 16384) : ℝ) : EReal) := by
    have e : idx_main_v34 (ix2 R (0 : Fin 1)) = ix1 R := funext fun a => Fin.ext (by match a with | ⟨0, _⟩ => rfl)
    rw [val_main_v35_apply, val_main_v34_apply, e, h33, Ideal.hostUnary_log_def, log_coe_pos (shiftSum_pos hpos M)]
  -- the weighted sum of the log-probabilities
  have h39 : val_main_v39 (F := Ideal) x0 x1 x2 (ix1 R)
      = ((∑ k ∈ Finset.range 16384, mkR x1 R.val k * ((logit x2 x0 R.val k - M)
          - Real.log (shiftSum (logit x2 x0 R.val) (lmR R.val) M 16384)) : ℝ) : EReal) := by
    rw [val_main_v39_apply, val_main_cst_3_apply]
    have hs : ∑ k : Fin 16384, val_main_v38 (F := Ideal) x0 x1 x2 (idx_main_v39 (ix1 R) k)
        = ((∑ k ∈ Finset.range 16384, mkR x1 R.val k * ((logit x2 x0 R.val k - M)
          - Real.log (shiftSum (logit x2 x0 R.val) (lmR R.val) M 16384)) : ℝ) : EReal) :=
      sum_coe_fin _ (fun k => mkR x1 R.val k * ((logit x2 x0 R.val k - M)
          - Real.log (shiftSum (logit x2 x0 R.val) (lmR R.val) M 16384))) (fun k => by
        have e : idx_main_v39 (ix1 R) k = ix2 R k := funext fun a => Fin.ext (by match a with | ⟨0, _⟩ => rfl | ⟨1, _⟩ => rfl)
        have e36 : idx_main_v36 (ix2 R k) = ix2 R (0 : Fin 1) := funext fun a => Fin.ext (by match a with | ⟨0, _⟩ => rfl | ⟨1, _⟩ => rfl)
        rw [e, val_main_v38_apply, v22_at, val_main_v37_apply, h30 k, val_main_v36_apply, e36, h35]
        show ((mkR x1 R.val k.val : ℝ) : EReal) * (((logit x2 x0 R.val k.val - M : ℝ) : EReal) - _) = _
        rw [← EReal.coe_sub, ← EReal.coe_mul])
    rw [hs]
    show Ideal.ofBits .f32 0x00000000#32 + _ = _
    rw [ofBits_zero, zero_add]
  -- the count
  have h40 : val_main_v40 (F := Ideal) x1 (ix1 R) = ((cnt (mkR x1 R.val) 16384 : ℝ) : EReal) := by
    rw [val_main_v40_apply, val_main_cst_4_apply]
    have hs : ∑ k : Fin 16384, val_main_v22 (F := Ideal) x1 (idx_main_v40 (ix1 R) k)
        = ((∑ k ∈ Finset.range 16384, mkR x1 R.val k : ℝ) : EReal) :=
      sum_coe_fin _ (fun k => mkR x1 R.val k) (fun k => by
        have e : idx_main_v40 (ix1 R) k = ix2 R k := funext fun a => Fin.ext (by match a with | ⟨0, _⟩ => rfl | ⟨1, _⟩ => rfl)
        rw [e, v22_at])
    rw [hs]
    show Ideal.ofBits .f32 0x00000000#32 + _ = _
    rw [ofBits_zero, zero_add]
    rfl
  -- the divisor
  have h43 : val_main_v43 (F := Ideal) x1 (ix1 R) = ((safe (cnt (mkR x1 R.val) 16384) : ℝ) : EReal) := by
    rw [val_main_v43_apply, val_main_v42_apply, h40, val_main_v41_apply, val_main_cst_5_apply,
      val_main_call0_v1_apply, val_main_call0_v0_apply, val_main_cst_6_apply]
    show Scalar.select (Ideal.cmp .ogt _ (Ideal.ofBits .f32 0x00000000#32)) _ (Ideal.ofBits .f32 0x3F800000#32) = _
    rw [ofBits_zero, ofBits_one]
    unfold Scalar.select Ideal.cmp safe
    by_cases h : 0 < cnt (mkR x1 R.val) 16384
    · have h' : (0 : EReal) < ((cnt (mkR x1 R.val) 16384 : ℝ) : EReal) := EReal.coe_pos.mpr h
      simp [h, h']
    · have h' : ¬(0 : EReal) < ((cnt (mkR x1 R.val) 16384 : ℝ) : EReal) := fun hh => h (EReal.coe_pos.mp hh)
      simp [h, h']
  rw [val_main_v44_apply, h39, h43]
  show Ideal.div _ _ = _
  rw [div_coe_coe _ (safe_ne_zero _)]
  refine congrArg (fun x : ℝ => (x : EReal)) ?_
  unfold rowValue
  rw [← whole_form hpos M, neg_neg]

/-! ## The result -/

/-- The 4096 rows, as a finite type, are `Fin 4096`. -/
def rowEquiv : S4096.Idx ≃ Fin 4096 where
  toFun i := i 0
  invFun := ix1
  left_inv i := (eq_ix1 i).symm
  right_inv _ := rfl

/-- The whole-row program's result: the total of the rows' values. -/
theorem result_eq (hF2 : Finite x2) (hF0 : Finite x0) (i : S_.Idx) :
    val_main_v46 (F := Ideal) x0 x1 x2 i = ((total x2 x0 x1 : ℝ) : EReal) := by
  rw [val_main_v46_apply, val_main_v45_apply, val_main_cst_7_apply]
  have hs : ∑ j : S4096.Idx, val_main_v44 (F := Ideal) x0 x1 x2 j
      = ((∑ R ∈ Finset.range 4096, -(rowValue x2 x0 x1 R) : ℝ) : EReal) := by
    rw [← Equiv.sum_comp rowEquiv.symm]
    exact sum_coe_fin _ (fun R => -(rowValue x2 x0 x1 R)) (fun R => v44_at x0 x1 x2 hF2 hF0 R)
  rw [hs]
  show -(Ideal.ofBits .f32 0x00000000#32 + _) = _
  rw [ofBits_zero, zero_add, ← EReal.coe_neg, Finset.sum_neg_distrib, neg_neg]
  rfl

end Cert.ReferenceIdeal.Rows

end
-- ==== Proof.PreReal.lean ====
/-
  What the precondition gives: every entry of the two float arguments is a real number.

  The precondition is the conjunction of two `all |x| < +∞` tests, one per float argument. A test that is all ones had a
  one at every index; and an extended real whose absolute value `max x (−x)` is below +∞ is neither infinity.
-/
import proofs.«135526_j36172214567215_1_alg».proof.Pre_finite_inputs
import proofs.«135526_j36172214567215_1_alg».proof.Proof.Data
import Idealize.ShloMosaic.Lib.ReduceAll
import Idealize.ShloMosaic.Lib.ValueIdx
import Idealize.ShloMosaic.PureOps.Ideal

noncomputable section

open Idealize.ShloMosaic

namespace Cert.Pre_finite_inputs.Real

open Cert.Pre_finite_inputs Cert.Data

variable [Cert.Pre_finite_inputs.Facts]

instance : Subsingleton S_.Idx := ⟨fun a b => funext fun d => d.elim0⟩

theorem ofBits_inf : Ideal.ofBits .f32 0x7F800000#32 = (⊤ : EReal) := by
  simp [Ideal.ofBits, Ideal.ieee]

/-- An extended real whose absolute value compares below +∞ is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- The precondition at the ideal instance makes both float arguments real-valued. -/
theorem finite_of_pre (a0 : FVec Ideal S1x16384x128 .f32) (a1 : IVec S16384x1 32) (a2 : FVec Ideal S1x4096x128 .f32)
    (h : fn (F := Ideal) a0 a1 a2 = fun _ => 1#1) : Finite a0 ∧ Finite a2 := by
  have h0 := congrFun h ValueIdx.ix0
  dsimp only [fn] at h0
  obtain ⟨h3, h7⟩ := IntOp.andi_eq_one.1 h0
  refine ⟨fun i => ?_, fun i => ?_⟩
  · exact real_of_abs_lt _ (Host.reduce_andi_all _ _ _ _ _ h3 i)
  · exact real_of_abs_lt _ (Host.reduce_andi_all _ _ _ _ _ h7 i)

end Cert.Pre_finite_inputs.Real

end
-- ==== Proof.lean ====
/-
  The certificate of the supervised-contrastive memory loss: a tiled, single-pass kernel against the whole-row program.

  Both programs compute, for each of the 4096 anchor rows, minus the mean log-probability of the row's positive pairs
  under a softmax over the 16384 memory-bank columns with the row's own column left out, and return the sum over the
  rows. The kernel walks the columns in 16 tiles of 1024 and keeps a running maximum, a running exponential sum rescaled
  whenever the maximum moves, and two running weighted sums; the whole-row program subtracts the row maximum once. On the
  extended reals with real inputs the two agree: the row value does not depend on which real is subtracted before
  exponentiating (Proof/RowLaw.lean), the kernel's columns after every tile are the row's state after that many
  columns (Proof/Rows.lean, by induction over the grid), and the kernel's folded reciprocal temperature is named as the
  exact reciprocal of the whole-row program's divisor, which is how dividing and multiplying meet.

  frame_Kernel, frame_KernelIdeal — the generated frames. frame_ReferenceIdeal — the reference's run with its result
  dropped. preserves_Kernel_KernelIdeal — the one named constant's statement. algebraic_KernelIdeal_ReferenceIdeal — both
  runs end at the total of the rows' values (Proof/Final.lean, Proof/RefRows.lean), finiteness of the float inputs
  from the precondition (Proof/PreReal.lean).
-/
import proofs.«135526_j36172214567215_1_alg».proof.Defs
import proofs.«135526_j36172214567215_1_alg».proof.Proof.Gen.Kernel
import proofs.«135526_j36172214567215_1_alg».proof.Proof.Gen.Kernel.Frame
import proofs.«135526_j36172214567215_1_alg».proof.Proof.Gen.KernelIdeal
import proofs.«135526_j36172214567215_1_alg».proof.Proof.Gen.KernelIdeal.Frame
import proofs.«135526_j36172214567215_1_alg».proof.Proof.Gen.ReferenceIdeal
import proofs.«135526_j36172214567215_1_alg».proof.Proof.Gen.Pre_finite_inputs
import proofs.«135526_j36172214567215_1_alg».proof.Proof.RefRead
import proofs.«135526_j36172214567215_1_alg».proof.Proof.Final
import proofs.«135526_j36172214567215_1_alg».proof.Proof.RefRows
import proofs.«135526_j36172214567215_1_alg».proof.Proof.PreReal
import Idealize.ShloMosaic.Adequacy
import Idealize.ShloMosaic.Init

noncomputable section

namespace Cert.Proof

open Idealize.ShloMosaic Idealize.ShloMosaic.TcCoe Idealize.SL.Sem
open Cert.Data Cert.KernelIdeal.Rows

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The ledger's one entry: the kernel's folded reciprocal temperature is named 2^27 / 9395241, the exact reciprocal of
    the whole-row program's divisor. -/
theorem preserves : Cert.preserves_Kernel_KernelIdeal :=
  IdealRules.named_const.statement Cert.KernelIdeal.κ "inv_temp" .f32 0x41649249#32 ((134217728 / 9395241 : ℝ) : EReal) rfl

/-- Both idealized programs, from memories agreeing on the arguments, end with the total of the rows' values. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.Pre_finite_inputs.Real.finite_of_pre _ _ _ (hpre c)
  have hF0 : ∀ c, Finite (aBank m c) := fun c => (hfin c).1
  have hF2 : ∀ c, Finite (aFeat m c) := fun c => (hfin c).2
  refine ⟨fun c => fun _ => ((total (aFeat m c) (aBank m c) (aLab m c) : ℝ) : EReal),
    Cert.KernelIdeal.Final.run m ρ hF2 hF0, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v46_eq, (hagree c).1, (hagree c).2.1, (hagree c).2.2]
  funext i
  exact Cert.ReferenceIdeal.Rows.result_eq _ _ _ (hF2 c) (hF0 c) i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
